-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩
abbrev S1x600000 : Shape := ⟨2, ![1, 600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_1_0 : S2x600000.Slices ![1, 0] S1x600000
  shapeCasts_S1x600000_S600000 : S1x600000.ShapeCasts S600000

variable [Facts]

def fn_part2 {F : FTy → Type} [FloatOps F] (main_arg2 : IVec S2x600000 32) (main_v33 : IVec S_ 1) : IVec S_ 1 :=
  let main_v34 : IVec S1x600000 32 := (extractStridedSlice S1x600000 ![1, 0] · slices_S2x600000_S1x600000_1_0) main_arg2
  let main_v35 : IVec S600000 32 := shapeCast S600000 main_v34 shapeCasts_S1x600000_S600000
  let main_c_12 : IVec S_ 32 := constantI S_ 32 0#32
  let main_v36 : IVec S600000 32 := broadcastInDim S600000 ![] bcast_S_S600000 main_c_12
  let main_v37 : IVec S600000 1 := cmpi .sge main_v35 main_v36
  let main_c_13 : IVec S_ 1 := constantI S_ 1 1#1
  let main_v38 : IVec S_ 1 := (fun x v => Host.reduce IntOp.andi x v reducesTo_S600000_S_d0 h_S_) main_v37 main_c_13
  let main_v39 : IVec S_ 1 := andi main_v33 main_v38
  main_v39

def fn_part1 {F : FTy → Type} [FloatOps F] (main_arg2 : IVec S2x600000 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_v33

def fn {F : FTy → Type} [FloatOps F] (main_arg0 : FVec F S100000x128 .f32) (main_arg1 : FVec F S100000x128 .f32) (main_arg2 : IVec S2x600000 32) (main_arg3 : FVec F S600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S600000 .f32 := Host.absf main_arg3
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_arg7 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S200000x128 : Shape := ⟨2, ![200000, 128]⟩
abbrev S1x600000 : Shape := ⟨2, ![1, 600000]⟩
abbrev S200000 : Shape := ⟨1, ![200000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000 : Shape := ⟨1, ![5000]⟩
abbrev S5000x1 : Shape := ⟨2, ![5000, 1]⟩

abbrev nBuf : Space → Nat
  | .hbm => 77
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S100000x128, .bf16⟩
  | .hbm, ⟨11, _⟩ => ⟨S100000x128, .bf16⟩
  | .hbm, ⟨12, _⟩ => ⟨S200000x128, .bf16⟩
  | .hbm, ⟨13, _⟩ => ⟨S1x600000, .i32⟩
  | .hbm, ⟨14, _⟩ => ⟨S600000, .i32⟩
  | .hbm, ⟨15, _⟩ => ⟨S200000, .i32⟩
  | .hbm, ⟨16, _⟩ => ⟨S800000, .i32⟩
  | .hbm, ⟨17, _⟩ => ⟨S1x600000, .i32⟩
  | .hbm, ⟨18, _⟩ => ⟨S600000, .i32⟩
  | .hbm, ⟨19, _⟩ => ⟨S200000, .i32⟩
  | .hbm, ⟨20, _⟩ => ⟨S800000, .i32⟩
  | .hbm, ⟨21, _⟩ => ⟨S_, .f32⟩
  | .hbm, ⟨22, _⟩ => ⟨S200000, .f32⟩
  | .hbm, ⟨23, _⟩ => ⟨S800000, .f32⟩
  | .hbm, ⟨24, _⟩ => ⟨S_, .f32⟩
  | .hbm, ⟨25, _⟩ => ⟨S200000, .f32⟩
  | .hbm, ⟨26, _⟩ => ⟨S800000x1, .i32⟩
  | .hbm, ⟨27, _⟩ => ⟨S200000, .f32⟩
  | .hbm, ⟨28, _⟩ => ⟨S_, .f32⟩
  | .hbm, ⟨29, _⟩ => ⟨S200000, .f32⟩
  | .hbm, ⟨30, _⟩ => ⟨S200000, .i1⟩
  | .hbm, ⟨31, _⟩ => ⟨S200000, .f32⟩
  | .hbm, ⟨32, _⟩ => ⟨S_, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000, .f32⟩
  | .hbm, ⟨55, _⟩ => ⟨S800000, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S200000x128, .f32⟩
  | .hbm, ⟨71, _⟩ => ⟨S800000x1, .i32⟩
  | .hbm, ⟨72, _⟩ => ⟨S200000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  concatenates_S100000x128_S100000x128_S200000x128_d0 : Shape.Concatenates [S100000x128, S100000x128] S200000x128 0
  slices_S2x600000_S1x600000_0_0 : S2x600000.Slices ![0, 0] S1x600000
  shapeCasts_S1x600000_S600000 : S1x600000.ShapeCasts S600000
  concatenates_S600000_S200000_S800000_d0 : Shape.Concatenates [S600000, S200000] S800000 0
  slices_S2x600000_S1x600000_1_0 : S2x600000.Slices ![1, 0] S1x600000
  bcast_S_S200000 : S_.BroadcastsInDim S200000 (![] : Fin 0 → Fin S200000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  slices_S200000x128_S100000x128_0_0 : S200000x128.Slices ![0, 0] S100000x128
  slices_S200000x128_S100000x128_100000_0 : S200000x128.Slices ![100000, 0] S100000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S200000x128 : Shape := ⟨2, ![200000, 128]⟩
abbrev S1x600000 : Shape := ⟨2, ![1, 600000]⟩
abbrev S200000 : Shape := ⟨1, ![200000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S200000x1 : Shape := ⟨2, ![200000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S200000x128, .f32⟩
  | .hbm, ⟨9, _⟩ => ⟨S1x600000, .i32⟩
  | .hbm, ⟨10, _⟩ => ⟨S600000, .i32⟩
  | .hbm, ⟨11, _⟩ => ⟨S200000, .i32⟩
  | .hbm, ⟨12, _⟩ => ⟨S800000, .i32⟩
  | .hbm, ⟨13, _⟩ => ⟨S1x600000, .i32⟩
  | .hbm, ⟨14, _⟩ => ⟨S600000, .i32⟩
  | .hbm, ⟨15, _⟩ => ⟨S200000, .i32⟩
  | .hbm, ⟨16, _⟩ => ⟨S800000, .i32⟩
  | .hbm, ⟨17, _⟩ => ⟨S_, .f32⟩
  | .hbm, ⟨18, _⟩ => ⟨S200000, .f32⟩
  | .hbm, ⟨19, _⟩ => ⟨S800000, .f32⟩
  | .hbm, ⟨20, _⟩ => ⟨S_, .f32⟩
  | .hbm, ⟨21, _⟩ => ⟨S200000, .f32⟩
  | .hbm, ⟨22, _⟩ => ⟨S800000x1, .i32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .i1⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000, .f32⟩
  | .hbm, ⟨51, _⟩ => ⟨S800000, .f32⟩
  | .hbm, ⟨52, _⟩ => ⟨S200000x128, .f32⟩
  | .hbm, ⟨53, _⟩ => ⟨S800000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S200000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S200000x128, .f32⟩
  | .hbm, ⟨76, _⟩ => ⟨S1x128, .f32⟩
  | .hbm, ⟨77, _⟩ => ⟨S200000x128, .f32⟩
  | .hbm, ⟨78, _⟩ => ⟨S200000x128, .f32⟩
  | .hbm, ⟨79, _⟩ => ⟨S200000x128, .f32⟩
  | .hbm, ⟨80, _⟩ => ⟨S1x128, .f32⟩
  | .hbm, ⟨81, _⟩ => ⟨S200000x128, .f32⟩
  | .hbm, ⟨82, _⟩ => ⟨S200000x128, .f32⟩
  | .hbm, ⟨83, _⟩ => ⟨S_, .f32⟩
  | .hbm, ⟨84, _⟩ => ⟨S_, .f32⟩
  | .hbm, ⟨85, _⟩ => ⟨S200000x128, .f32⟩
  | .hbm, ⟨86, _⟩ => ⟨S200000x128, .i1⟩
  | .hbm, ⟨87, _⟩ => ⟨S_, .f32⟩
  | .hbm, ⟨88, _⟩ => ⟨S200000x128, .f32⟩
  | .hbm, ⟨89, _⟩ => ⟨S200000x128, .f32⟩
  | .hbm, ⟨90, _⟩ => ⟨S200000x128, .f32⟩
  | .hbm, ⟨91, _⟩ => ⟨S200000x128, .f32⟩
  | .hbm, ⟨92, _⟩ => ⟨S_, .f32⟩
  | .hbm, ⟨93, _⟩ => ⟨S200000, .f32⟩
  | .hbm, ⟨94, _⟩ => ⟨S200000x1, .f32⟩
  | .hbm, ⟨95, _⟩ => ⟨S_, .f32⟩
  | .hbm, ⟨96, _⟩ => ⟨S200000x1, .f32⟩
  | .hbm, ⟨97, _⟩ => ⟨S200000x1, .f32⟩
  | .hbm, ⟨98, _⟩ => ⟨S200000x128, .f32⟩
  | .hbm, ⟨99, _⟩ => ⟨S200000x128, .f32⟩
  | .hbm, ⟨100, _⟩ => ⟨S200000x128, .f32⟩
  | .hbm, ⟨101, _⟩ => ⟨S_, .f32⟩
  | .hbm, ⟨102, _⟩ => ⟨S200000, .f32⟩
  | .hbm, ⟨103, _⟩ => ⟨S200000x1, .f32⟩
  | .hbm, ⟨104, _⟩ => ⟨S_, .f32⟩
  | .hbm, ⟨105, _⟩ => ⟨S200000x1, .f32⟩
  | .hbm, ⟨106, _⟩ => ⟨S200000x1, .f32⟩
  | .hbm, ⟨107, _⟩ => ⟨S200000x128, .f32⟩
  | .hbm, ⟨108, _⟩ => ⟨S200000x128, .f32⟩
  | .hbm, ⟨109, _⟩ => ⟨S_, .f32⟩
  | .hbm, ⟨110, _⟩ => ⟨S200000x1, .f32⟩
  | .hbm, ⟨111, _⟩ => ⟨S200000x1, .f32⟩
  | .hbm, ⟨112, _⟩ => ⟨S200000x1, .f32⟩
  | .hbm, ⟨113, _⟩ => ⟨S200000x128, .f32⟩
  | .hbm, ⟨114, _⟩ => ⟨S200000x128, .f32⟩
  | .hbm, ⟨115, _⟩ => ⟨S_, .f32⟩
  | .hbm, ⟨116, _⟩ => ⟨S_, .f32⟩
  | .hbm, ⟨117, _⟩ => ⟨S200000x128, .f32⟩
  | .hbm, ⟨118, _⟩ => ⟨S200000x128, .i1⟩
  | .hbm, ⟨119, _⟩ => ⟨S_, .f32⟩
  | .hbm, ⟨120, _⟩ => ⟨S200000x128, .f32⟩
  | .hbm, ⟨121, _⟩ => ⟨S200000x128, .f32⟩
  | .hbm, ⟨122, _⟩ => ⟨S200000x128, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v60 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  concatenates_S100000x128_S100000x128_S200000x128_d0 : Shape.Concatenates [S100000x128, S100000x128] S200000x128 0
  slices_S2x600000_S1x600000_0_0 : S2x600000.Slices ![0, 0] S1x600000
  shapeCasts_S1x600000_S600000 : S1x600000.ShapeCasts S600000
  concatenates_S600000_S200000_S800000_d0 : Shape.Concatenates [S600000, S200000] S800000 0
  slices_S2x600000_S1x600000_1_0 : S2x600000.Slices ![1, 0] S1x600000
  bcast_S_S200000 : S_.BroadcastsInDim S200000 (![] : Fin 0 → Fin S200000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S200000x128 : S_.BroadcastsInDim S200000x128 (![] : Fin 0 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  reducesTo_S200000x128_S200000_d1 : S200000x128.ReducesTo [1] S200000
  h_S_ : 0 < S_.numel
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  slices_S200000x128_S100000x128_0_0 : S200000x128.Slices ![0, 0] S100000x128
  slices_S200000x128_S100000x128_100000_0 : S200000x128.Slices ![100000, 0] S100000x128
  scatter_S200000_S800000x1_S800000_n_0_0_1_wf : ScatterDims.WF S200000 S800000x1 S800000 [] [0] [0] 1
  gather_S200000_S800000x1_S800000_n_0_n_n_0_1_1_wf : GatherDims.WF S200000 S800000x1 S800000 [] [0] [] [0] [] 1 ![1]
  dot_S200000x128_S128x128_S200000x128_1_0_0_1_n_n_wf : DotDims.WF S200000x128 S128x128 S200000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf

class Facts : Prop extends Facts₀ where

variable [Facts]
-- ==== Proof.KRun.lean ====
/- The kernel program's run, with its two results named.

   The run of @main on the TensorCores, from any launch memory with zero counters, terminates without a fault, and in
   every final state each of the two result buffers holds what the last segment boundary's contents say, while every
   argument buffer holds what it held at launch.  The run is the library's theorem on a program cut into host stretches
   and pipelined regions, applied to the segments of @main; its last hypothesis reads the post off the fact that every
   unscoped buffer ends at the last boundary's contents, and here that reading is taken at the two results as well as
   at the eight arguments. -/
import proofs.«131488_j63857573757446_2_alg».proof.Proof.Gen.KernelIdeal.Frame
import Idealize.ShloMosaic.PureOps.Ideal

set_option maxRecDepth 16384

noncomputable section

namespace Cert.KernelIdeal.Plumb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the library theorem's implicit arguments are found by unifying its conclusion with this one, which takes unfolding
-- plain definitions in a metavariable's type
set_option backward.isDefEq.respectTransparency.types false in
/-- Every weakly fair execution of @main terminates, nothing faulting; in every final state the two results hold the
    last boundary's contents and the eight arguments hold their launch contents. -/
theorem krun : θ_run (defs (F := Ideal)) (onTc (τ := τ) (main (F := Ideal))) ⟨m, fun _ => 0, ρ⟩ (fun r => ∀ c : Dev nD,
      r.2.mem ((c.tc : Thread nD τ).loc main_v54) = Gen.W8 m ρ c (Proc.devRef .tc main_v54)
      ∧ r.2.mem ((c.tc : Thread nD τ).loc main_v55) = Gen.W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v54 (by decide)),
       h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Plumb

end
-- ==== Proof.KPlumb.lean ====
/- The bookkeeping of buffer contents between the kernel program's four pipelined regions.

   The contents of the TensorCore's buffers at each segment boundary of @main are a fold from the launch memory: a host
   stretch rewrites the buffers its operations write, a region leaves each of its output arrays at what its write-backs
   leave and every other buffer as it was entered.  The equations below read that fold at the buffers the value
   argument needs: the two results, the outputs of the first two regions, and each region's input arrays, walked back
   to the launch memory (or to an earlier boundary) through the segments that do not write them. -/
import proofs.«131488_j63857573757446_2_alg».proof.Proof.Gen.KernelIdeal.Frame
import Idealize.ShloMosaic.PureOps.Ideal

set_option maxRecDepth 16384

noncomputable section

namespace Cert.KernelIdeal.Plumb

open Idealize.ShloMosaic Idealize.ShloMosaic.TcCoe Idealize.ShloMosaic.Tactic
open Idealize.SL Idealize.SL.Sem
open Idealize.ShloMosaic.Pipeline (Dat Cfg Window)
open Cert.KernelIdeal.Facts₀

variable (m : (ℓ : Loc nD τ sig) → Buf (Elt Ideal) ℓ) (ρ : Dev nD → PrngReg)

/-- A buffer that no operation of a literal host stretch writes holds after the stretch what it held before: the
    stretch's written buffers are listed, and each is told apart from the buffer by deciding the references. -/
local macro "host_skip " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The two results -/

/-- The first result is region 2's output array, which region 3 does not touch. -/
theorem W8_v54 (c : Dev nD) :
    Gen.W8 m ρ c (Proc.devRef .tc main_v54) = (Gen.dat2 (Gen.V6 m ρ) c).arrAt 5 cfg2.N :=
  (Gen.W8_of_ne m ρ c main_v54 (by decide)).trans (Gen.W7_arr m ρ c 5)

/-- The second result is region 3's output array. -/
theorem W8_v55 (c : Dev nD) :
    Gen.W8 m ρ c (Proc.devRef .tc main_v55) = (Gen.dat3 (Gen.V7 m ρ) c).arrAt 5 cfg3.N :=
  Gen.W8_arr m ρ c 5

/-! ## Regions 0 and 1 -/

/-- After region 1, region 0's output array holds what region 0's write-backs left. -/
theorem W3_v2 (c : Dev nD) :
    Gen.W3 m ρ c (Proc.devRef .tc main_v2) = (Gen.dat0 (Gen.V1 m ρ) c).arrAt 2 cfg0.N :=
  (Gen.W3_of_ne m ρ c main_v2 (by decide)).trans (Gen.W2_arr m ρ c 2)

/-- After region 1, its output array holds what its write-backs left. -/
theorem W3_v3 (c : Dev nD) :
    Gen.W3 m ρ c (Proc.devRef .tc main_v3) = (Gen.dat1 (Gen.V2 m ρ) c).arrAt 2 cfg1.N :=
  Gen.W3_arr m ρ c 2

/-- The first host stretch (two reshapes into fresh buffers) writes no argument. -/
theorem W1_arg0 (c : Dev nD) : Gen.W1 m ρ c (Proc.devRef .tc main_arg0) = m ((c : Thread nD τ).loc main_arg0) :=
  (show StableHlo.after Gen.hostOps0 (Gen.W0 m ρ c) (Proc.devRef .tc main_arg0) = Gen.W0 m ρ c (Proc.devRef .tc main_arg0) by
    host_skip Gen.hostOps0).trans rfl
theorem W1_arg1 (c : Dev nD) : Gen.W1 m ρ c (Proc.devRef .tc main_arg1) = m ((c : Thread nD τ).loc main_arg1) :=
  (show StableHlo.after Gen.hostOps0 (Gen.W0 m ρ c) (Proc.devRef .tc main_arg1) = Gen.W0 m ρ c (Proc.devRef .tc main_arg1) by
    host_skip Gen.hostOps0).trans rfl
theorem W1_arg2 (c : Dev nD) : Gen.W1 m ρ c (Proc.devRef .tc main_arg2) = m ((c : Thread nD τ).loc main_arg2) :=
  (show StableHlo.after Gen.hostOps0 (Gen.W0 m ρ c) (Proc.devRef .tc main_arg2) = Gen.W0 m ρ c (Proc.devRef .tc main_arg2) by
    host_skip Gen.hostOps0).trans rfl
theorem W1_arg3 (c : Dev nD) : Gen.W1 m ρ c (Proc.devRef .tc main_arg3) = m ((c : Thread nD τ).loc main_arg3) :=
  (show StableHlo.after Gen.hostOps0 (Gen.W0 m ρ c) (Proc.devRef .tc main_arg3) = Gen.W0 m ρ c (Proc.devRef .tc main_arg3) by
    host_skip Gen.hostOps0).trans rfl
theorem W1_arg4 (c : Dev nD) : Gen.W1 m ρ c (Proc.devRef .tc main_arg4) = m ((c : Thread nD τ).loc main_arg4) :=
  (show StableHlo.after Gen.hostOps0 (Gen.W0 m ρ c) (Proc.devRef .tc main_arg4) = Gen.W0 m ρ c (Proc.devRef .tc main_arg4) by
    host_skip Gen.hostOps0).trans rfl
theorem W1_arg6 (c : Dev nD) : Gen.W1 m ρ c (Proc.devRef .tc main_arg6) = m ((c : Thread nD τ).loc main_arg6) :=
  (show StableHlo.after Gen.hostOps0 (Gen.W0 m ρ c) (Proc.devRef .tc main_arg6) = Gen.W0 m ρ c (Proc.devRef .tc main_arg6) by
    host_skip Gen.hostOps0).trans rfl

/-- Region 0 is entered with its two input arrays as launched. -/
theorem V1_arg0 (c : Dev nD) : Gen.V1 m ρ c main_arg0 = m ((c : Thread nD τ).loc main_arg0) := W1_arg0 m ρ c
theorem V1_arg4 (c : Dev nD) : Gen.V1 m ρ c main_arg4 = m ((c : Thread nD τ).loc main_arg4) := W1_arg4 m ρ c

/-- Region 1 is entered with its two input arrays as launched: region 0 writes neither (the shared weight is an input
    window's array of region 0, left as entered). -/
theorem V2_arg1 (c : Dev nD) : Gen.V2 m ρ c main_arg1 = m ((c : Thread nD τ).loc main_arg1) :=
  (Gen.W2_of_ne m ρ c main_arg1 (by decide)).trans (W1_arg1 m ρ c)
theorem V2_arg4 (c : Dev nD) : Gen.V2 m ρ c main_arg4 = m ((c : Thread nD τ).loc main_arg4) :=
  ((Gen.W2_arr m ρ c 1).trans (((Gen.dat0 (Gen.V1 m ρ) c).arrAt_in 1 rfl _).trans (Gen.A_eq0 (Gen.V1 m ρ) c 1))).trans
    (W1_arg4 m ρ c)

/-! ## After region 1: the buffers the host stretches and the last two regions read -/

theorem W3_arg0 (c : Dev nD) : Gen.W3 m ρ c (Proc.devRef .tc main_arg0) = m ((c : Thread nD τ).loc main_arg0) :=
  (Gen.W3_of_ne m ρ c main_arg0 (by decide)).trans
    (((Gen.W2_arr m ρ c 0).trans (((Gen.dat0 (Gen.V1 m ρ) c).arrAt_in 0 rfl _).trans (Gen.A_eq0 (Gen.V1 m ρ) c 0))).trans
      (W1_arg0 m ρ c))
theorem W3_arg1 (c : Dev nD) : Gen.W3 m ρ c (Proc.devRef .tc main_arg1) = m ((c : Thread nD τ).loc main_arg1) :=
  ((Gen.W3_arr m ρ c 0).trans (((Gen.dat1 (Gen.V2 m ρ) c).arrAt_in 0 rfl _).trans (Gen.A_eq1 (Gen.V2 m ρ) c 0))).trans
    (V2_arg1 m ρ c)
theorem W3_arg2 (c : Dev nD) : Gen.W3 m ρ c (Proc.devRef .tc main_arg2) = m ((c : Thread nD τ).loc main_arg2) :=
  (Gen.W3_of_ne m ρ c main_arg2 (by decide)).trans ((Gen.W2_of_ne m ρ c main_arg2 (by decide)).trans (W1_arg2 m ρ c))
theorem W3_arg3 (c : Dev nD) : Gen.W3 m ρ c (Proc.devRef .tc main_arg3) = m ((c : Thread nD τ).loc main_arg3) :=
  (Gen.W3_of_ne m ρ c main_arg3 (by decide)).trans ((Gen.W2_of_ne m ρ c main_arg3 (by decide)).trans (W1_arg3 m ρ c))
theorem W3_arg6 (c : Dev nD) : Gen.W3 m ρ c (Proc.devRef .tc main_arg6) = m ((c : Thread nD τ).loc main_arg6) :=
  (Gen.W3_of_ne m ρ c main_arg6 (by decide)).trans ((Gen.W2_of_ne m ρ c main_arg6 (by decide)).trans (W1_arg6 m ρ c))

/-- The two bias rows: each is the first host stretch's reshape of its argument to one row, and neither of the first
    two regions touches it. -/
theorem W3_v0 (c : Dev nD) :
    Gen.W3 m ρ c (Proc.devRef .tc main_v0)
      = shapeCast S1x128 (m ((c : Thread nD τ).loc main_arg5) : FVec Ideal S128 .f32) shapeCasts_S128_S1x128 :=
  (Gen.W3_of_ne m ρ c main_v0 (by decide)).trans ((Gen.W2_of_ne m ρ c main_v0 (by decide)).trans
    (show StableHlo.after Gen.hostOps0 (Gen.W0 m ρ c) (Proc.devRef .tc main_v0) = _ by
      after_results; rfl))
theorem W3_v1 (c : Dev nD) :
    Gen.W3 m ρ c (Proc.devRef .tc main_v1)
      = shapeCast S1x128 (m ((c : Thread nD τ).loc main_arg7) : FVec Ideal S128 .f32) shapeCasts_S128_S1x128 :=
  (Gen.W3_of_ne m ρ c main_v1 (by decide)).trans ((Gen.W2_of_ne m ρ c main_v1 (by decide)).trans
    (show StableHlo.after Gen.hostOps0 (Gen.W0 m ρ c) (Proc.devRef .tc main_v1) = _ by
      after_results; rfl))

/-! ## Region 2's entry: the buffers the three host stretches between the regions leave alone -/

/-- The three host stretches between regions 1 and 2 write only their own intermediate buffers. -/
theorem W6_arg0 (c : Dev nD) : Gen.W6 m ρ c (Proc.devRef .tc main_arg0) = Gen.W3 m ρ c (Proc.devRef .tc main_arg0) :=
  (show StableHlo.after Gen.hostOps2_2 (Gen.W5 m ρ c) (Proc.devRef .tc main_arg0) = Gen.W5 m ρ c (Proc.devRef .tc main_arg0) by
    host_skip Gen.hostOps2_2).trans
  ((show StableHlo.after Gen.hostOps2_1 (Gen.W4 m ρ c) (Proc.devRef .tc main_arg0) = Gen.W4 m ρ c (Proc.devRef .tc main_arg0) by
    host_skip Gen.hostOps2_1).trans
  (show StableHlo.after Gen.hostOps2 (Gen.W3 m ρ c) (Proc.devRef .tc main_arg0) = Gen.W3 m ρ c (Proc.devRef .tc main_arg0) by
    host_skip Gen.hostOps2))
theorem W6_arg1 (c : Dev nD) : Gen.W6 m ρ c (Proc.devRef .tc main_arg1) = Gen.W3 m ρ c (Proc.devRef .tc main_arg1) :=
  (show StableHlo.after Gen.hostOps2_2 (Gen.W5 m ρ c) (Proc.devRef .tc main_arg1) = Gen.W5 m ρ c (Proc.devRef .tc main_arg1) by
    host_skip Gen.hostOps2_2).trans
  ((show StableHlo.after Gen.hostOps2_1 (Gen.W4 m ρ c) (Proc.devRef .tc main_arg1) = Gen.W4 m ρ c (Proc.devRef .tc main_arg1) by
    host_skip Gen.hostOps2_1).trans
  (show StableHlo.after Gen.hostOps2 (Gen.W3 m ρ c) (Proc.devRef .tc main_arg1) = Gen.W3 m ρ c (Proc.devRef .tc main_arg1) by
    host_skip Gen.hostOps2))
theorem W6_arg6 (c : Dev nD) : Gen.W6 m ρ c (Proc.devRef .tc main_arg6) = Gen.W3 m ρ c (Proc.devRef .tc main_arg6) :=
  (show StableHlo.after Gen.hostOps2_2 (Gen.W5 m ρ c) (Proc.devRef .tc main_arg6) = Gen.W5 m ρ c (Proc.devRef .tc main_arg6) by
    host_skip Gen.hostOps2_2).trans
  ((show StableHlo.after Gen.hostOps2_1 (Gen.W4 m ρ c) (Proc.devRef .tc main_arg6) = Gen.W4 m ρ c (Proc.devRef .tc main_arg6) by
    host_skip Gen.hostOps2_1).trans
  (show StableHlo.after Gen.hostOps2 (Gen.W3 m ρ c) (Proc.devRef .tc main_arg6) = Gen.W3 m ρ c (Proc.devRef .tc main_arg6) by
    host_skip Gen.hostOps2))
theorem W6_v0 (c : Dev nD) : Gen.W6 m ρ c (Proc.devRef .tc main_v0) = Gen.W3 m ρ c (Proc.devRef .tc main_v0) :=
  (show StableHlo.after Gen.hostOps2_2 (Gen.W5 m ρ c) (Proc.devRef .tc main_v0) = Gen.W5 m ρ c (Proc.devRef .tc main_v0) by
    host_skip Gen.hostOps2_2).trans
  ((show StableHlo.after Gen.hostOps2_1 (Gen.W4 m ρ c) (Proc.devRef .tc main_v0) = Gen.W4 m ρ c (Proc.devRef .tc main_v0) by
    host_skip Gen.hostOps2_1).trans
  (show StableHlo.after Gen.hostOps2 (Gen.W3 m ρ c) (Proc.devRef .tc main_v0) = Gen.W3 m ρ c (Proc.devRef .tc main_v0) by
    host_skip Gen.hostOps2))
theorem W6_v1 (c : Dev nD) : Gen.W6 m ρ c (Proc.devRef .tc main_v1) = Gen.W3 m ρ c (Proc.devRef .tc main_v1) :=
  (show StableHlo.after Gen.hostOps2_2 (Gen.W5 m ρ c) (Proc.devRef .tc main_v1) = Gen.W5 m ρ c (Proc.devRef .tc main_v1) by
    host_skip Gen.hostOps2_2).trans
  ((show StableHlo.after Gen.hostOps2_1 (Gen.W4 m ρ c) (Proc.devRef .tc main_v1) = Gen.W4 m ρ c (Proc.devRef .tc main_v1) by
    host_skip Gen.hostOps2_1).trans
  (show StableHlo.after Gen.hostOps2 (Gen.W3 m ρ c) (Proc.devRef .tc main_v1) = Gen.W3 m ρ c (Proc.devRef .tc main_v1) by
    host_skip Gen.hostOps2))

/-- Region 2 is entered with the first feature array and the second weight as launched, and the two bias rows as the
    first host stretch reshaped them. -/
theorem V6_arg0 (c : Dev nD) : Gen.V6 m ρ c main_arg0 = m ((c : Thread nD τ).loc main_arg0) :=
  (W6_arg0 m ρ c).trans (W3_arg0 m ρ c)
theorem V6_arg6 (c : Dev nD) : Gen.V6 m ρ c main_arg6 = m ((c : Thread nD τ).loc main_arg6) :=
  (W6_arg6 m ρ c).trans (W3_arg6 m ρ c)
theorem V6_v1 (c : Dev nD) :
    Gen.V6 m ρ c main_v1
      = shapeCast S1x128 (m ((c : Thread nD τ).loc main_arg7) : FVec Ideal S128 .f32) shapeCasts_S128_S1x128 :=
  (W6_v1 m ρ c).trans (W3_v1 m ρ c)
theorem V6_v0 (c : Dev nD) :
    Gen.V6 m ρ c main_v0
      = shapeCast S1x128 (m ((c : Thread nD τ).loc main_arg5) : FVec Ideal S128 .f32) shapeCasts_S128_S1x128 :=
  (W6_v0 m ρ c).trans (W3_v0 m ρ c)

/-! ## Region 3's entry: what region 2 leaves alone -/

/-- The second half of the aggregate is no array of region 2. -/
theorem V7_v53 (c : Dev nD) : Gen.V7 m ρ c main_v53 = Gen.V6 m ρ c main_v53 :=
  Gen.W7_of_ne m ρ c main_v53 (by decide)
/-- The second feature array is no array of region 2 and is written by no segment before it. -/
theorem V7_arg1 (c : Dev nD) : Gen.V7 m ρ c main_arg1 = m ((c : Thread nD τ).loc main_arg1) :=
  (Gen.W7_of_ne m ρ c main_arg1 (by decide)).trans ((W6_arg1 m ρ c).trans (W3_arg1 m ρ c))
/-- The second weight and the two bias rows are input arrays of region 2: each is left as entered. -/
theorem V7_arg6 (c : Dev nD) : Gen.V7 m ρ c main_arg6 = m ((c : Thread nD τ).loc main_arg6) :=
  ((Gen.W7_arr m ρ c 2).trans (((Gen.dat2 (Gen.V6 m ρ) c).arrAt_in 2 rfl _).trans (Gen.A_eq2 (Gen.V6 m ρ) c 2))).trans
    (V6_arg6 m ρ c)
theorem V7_v1 (c : Dev nD) : Gen.V7 m ρ c main_v1 = Gen.V6 m ρ c main_v1 :=
  (Gen.W7_arr m ρ c 3).trans (((Gen.dat2 (Gen.V6 m ρ) c).arrAt_in 3 rfl _).trans (Gen.A_eq2 (Gen.V6 m ρ) c 3))
theorem V7_v0 (c : Dev nD) : Gen.V7 m ρ c main_v0 = Gen.V6 m ρ c main_v0 :=
  (Gen.W7_arr m ρ c 4).trans (((Gen.dat2 (Gen.V6 m ρ) c).arrAt_in 4 rfl _).trans (Gen.A_eq2 (Gen.V6 m ρ) c 4))

end Cert.KernelIdeal.Plumb

end
-- ==== Proof.KTerms.lean ====
/-
  The host-side aggregation of the graph convolution, written as pure functions of the argument arrays.

  Every edge e has two ends (ends0 e, ends1 e) and a weight; after the 600000 given edges come 200000 self loops
  (node i to node i, weight 1). The degree of a node is the sum of the weights of the edges whose second end it
  is; dinv is its inverse square root where the degree is positive and 0 elsewhere; an edge's coefficient is
  dinv(first end) · weight · dinv(second end); and the aggregate adds, into the row of each edge's second end,
  the coefficient times the projected feature row of its first end.
  Each definition is the composition of the program's own operations, in the program's order.
-/
import proofs.«131488_j63857573757446_2_alg».proof.KernelIdeal
import proofs.«131488_j63857573757446_2_alg».proof.Proof.Gen.KernelIdeal
import Idealize.ShloMosaic.PureOps.Ideal

noncomputable section

namespace Cert.KernelIdeal.Terms

open Idealize.ShloMosaic Cert.KernelIdeal Cert.KernelIdeal.Facts₀

/-- The first (k = 0) or second (k = 1) end of every edge: the given ends, then every node's own index. -/
def ends0 (a2 : IVec S2x600000 32) : IVec S800000 32 :=
  concatenate S800000 0 [⟨S600000, shapeCast S600000 (extractStridedSlice S1x600000 ![0, 0] a2 slices_S2x600000_S1x600000_0_0) shapeCasts_S1x600000_S600000⟩, ⟨S200000, iotaInDim S200000 32 0⟩] concatenates_S600000_S200000_S800000_d0

def ends1 (a2 : IVec S2x600000 32) : IVec S800000 32 :=
  concatenate S800000 0 [⟨S600000, shapeCast S600000 (extractStridedSlice S1x600000 ![1, 0] a2 slices_S2x600000_S1x600000_1_0) shapeCasts_S1x600000_S600000⟩, ⟨S200000, iotaInDim S200000 32 0⟩] concatenates_S600000_S200000_S800000_d0

/-- The edge weights: the given ones, then 1 for every self loop. -/
def wts (a3 : FVec Ideal S600000 .f32) : FVec Ideal S800000 .f32 :=
  concatenate S800000 0 [⟨S600000, a3⟩, ⟨S200000, broadcastInDim S200000 ![] bcast_S_S200000 (constant S_ .f32 0x3F800000#32)⟩] concatenates_S600000_S200000_S800000_d0

/-- A list of indices as a one-column table. -/
def col1 (i : IVec S800000 32) : IVec S800000x1 32 := broadcastInDim S800000x1 ![0] bcast_S800000_S800000x1_0 i

/-- A negative index counted from the end: i + 200000 where i < 0, else i. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 200000#32))) i

/-- The degree of every node: the weights summed into the second ends. -/
def deg (a2 : IVec S2x600000 32) (a3 : FVec Ideal S600000 .f32) : FVec Ideal S200000 .f32 :=
  Host.scatterAdd scatter_S200000_S800000x1_S800000_n_0_0_1
    (broadcastInDim S200000 ![] bcast_S_S200000 (constant S_ .f32 0x00000000#32)) (col1 (ends1 a2)) (wts a3)

/-- The inverse square root of the degree where it is positive, 0 elsewhere. -/
def dinv (a2 : IVec S2x600000 32) (a3 : FVec Ideal S600000 .f32) : FVec Ideal S200000 .f32 :=
  select (cmpf .ogt (deg a2 a3) (broadcastInDim S200000 ![] bcast_S_S200000 (constant S_ .f32 0x00000000#32)))
    (Host.rsqrt (deg a2 a3)) (broadcastInDim S200000 ![] bcast_S_S200000 (constant S_ .f32 0x00000000#32))

/-- An edge's coefficient: dinv at its first end, times its weight, times dinv at its second end. -/
def coef (a2 : IVec S2x600000 32) (a3 : FVec Ideal S600000 .f32) : FVec Ideal S800000 .f32 :=
  mulf (mulf (Host.gather gather_S200000_S800000x1_S800000_n_0_n_n_0_1_1 (dinv a2 a3) (col1 (wrap (ends0 a2)))) (wts a3))
    (Host.gather gather_S200000_S800000x1_S800000_n_0_n_n_0_1_1 (dinv a2 a3) (col1 (wrap (ends1 a2))))

/-- The coefficients spread over the 128 feature columns. -/
def coefRows (a2 : IVec S2x600000 32) (a3 : FVec Ideal S600000 .f32) : FVec Ideal S800000x128 .f32 :=
  broadcastInDim S800000x128 ![0, 1] bcast_S800000x1_S800000x128_0_1 (broadcastInDim S800000x1 ![0] bcast_S800000_S800000x1_0 (coef a2 a3))

/-- The aggregate as a function of the projected features h: each edge adds coefficient · (row of h at its first
    end) into the row of its second end. -/
def agg (h : FVec Ideal S200000x128 .bf16) (a2 : IVec S2x600000 32) (a3 : FVec Ideal S600000 .f32) : FVec Ideal S200000x128 .f32 :=
  Host.scatterAdd scatter_S200000x128_S800000x1_S800000x128_1_0_0_1
    (broadcastInDim S200000x128 ![] bcast_S_S200000x128 (constant S_ .f32 0x00000000#32)) (col1 (ends1 a2))
    (mulf (coefRows a2 a3)
      (extf .f32 (Host.gather gather_S200000x128_S800000x1_S800000x128_1_0_n_n_0_1_1128 h (col1 (wrap (ends0 a2)))) bitsLt_bf16_f32))

end Cert.KernelIdeal.Terms

end
-- ==== Proof.KPlumb2.lean ====
/- Region 2's and region 3's aggregate inputs, read through the three host stretches between regions 1 and 2.

   The three stretches compute, from the two projected feature arrays (the outputs of regions 0 and 1, joined into one
   array of 200000 rows), the edge list and the edge weights, the normalised aggregate of the graph convolution, and
   split it into two halves of 100000 rows: the first half is region 2's first input array, the second half region 3's.
   Over any contents `W` of the buffers before a stretch, each buffer the stretch computes is a function of the
   buffers it reads; composing the three stretches, each half is the slice of the aggregate `Terms.agg` of the joined
   features, the edge list and the weights. -/
import proofs.«131488_j63857573757446_2_alg».proof.Proof.Gen.KernelIdeal.Frame
import proofs.«131488_j63857573757446_2_alg».proof.Proof.KTerms
import proofs.«131488_j63857573757446_2_alg».proof.Proof.KPlumb
import Idealize.ShloMosaic.PureOps.Ideal

set_option maxRecDepth 16384

noncomputable section

namespace Cert.KernelIdeal.Plumb

open Idealize.ShloMosaic Idealize.ShloMosaic.TcCoe Idealize.ShloMosaic.Tactic
open Idealize.SL Idealize.SL.Sem
open Cert.KernelIdeal.Facts₀

/-- A buffer that no operation of a literal host stretch writes holds after the stretch what it held before. -/
local macro "host_skip " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The joined features as a function of the contents `W` before the stretches. -/
abbrev joined (W : Valuation τ sig (Elt Ideal)) : FVec Ideal S200000x128 .bf16 :=
  concatenate S200000x128 0 [⟨S100000x128, W (Proc.devRef .tc main_v2)⟩, ⟨S100000x128, W (Proc.devRef .tc main_v3)⟩]
    concatenates_S100000x128_S100000x128_S200000x128_d0

/-- The zero vector the degree is compared with and that stands where the degree is not positive. -/
abbrev zeros : FVec Ideal S200000 .f32 :=
  broadcastInDim S200000 ![] bcast_S_S200000 (constant (F := Ideal) S_ .f32 0x00000000#32)

/-! ## The first stretch: the edge ends, the weights, the degree's two readings -/

section First
variable (W : Valuation τ sig (Elt Ideal))

set_option maxHeartbeats 400000 in
theorem first_v4 : StableHlo.after Gen.hostOps2 W (Proc.devRef .tc main_v4) = joined W := by
  after_results_simp <;> rfl
set_option maxHeartbeats 400000 in
theorem first_v8 : StableHlo.after Gen.hostOps2 W (Proc.devRef .tc main_v8) = Terms.ends0 (W (Proc.devRef .tc main_arg2)) := by
  after_results_simp <;> rfl
set_option maxHeartbeats 400000 in
theorem first_v12 : StableHlo.after Gen.hostOps2 W (Proc.devRef .tc main_v12) = Terms.ends1 (W (Proc.devRef .tc main_arg2)) := by
  after_results_simp <;> rfl
set_option maxHeartbeats 400000 in
theorem first_v14 : StableHlo.after Gen.hostOps2 W (Proc.devRef .tc main_v14) = Terms.wts (W (Proc.devRef .tc main_arg3)) := by
  after_results_simp <;> rfl
set_option maxHeartbeats 400000 in
theorem first_v19 : StableHlo.after Gen.hostOps2 W (Proc.devRef .tc main_v19)
    = cmpf .ogt (Terms.deg (W (Proc.devRef .tc main_arg2)) (W (Proc.devRef .tc main_arg3))) zeros := by
  after_results_simp <;> rfl
set_option maxHeartbeats 400000 in
theorem first_v20 : StableHlo.after Gen.hostOps2 W (Proc.devRef .tc main_v20)
    = Host.rsqrt (Terms.deg (W (Proc.devRef .tc main_arg2)) (W (Proc.devRef .tc main_arg3))) := by
  after_results_simp <;> rfl
set_option maxHeartbeats 400000 in
theorem first_cst2 : StableHlo.after Gen.hostOps2 W (Proc.devRef .tc main_cst_2) = constant (F := Ideal) S_ .f32 0x00000000#32 := by
  after_results_simp <;> rfl

end First

/-! ## The second stretch: the inverse square root of the degree where it is positive, zero elsewhere -/

section Second
variable (W : Valuation τ sig (Elt Ideal))

set_option maxHeartbeats 400000 in
theorem second_v21 : StableHlo.after Gen.hostOps2_1 W (Proc.devRef .tc main_v21)
    = select (W (Proc.devRef .tc main_v19)) (W (Proc.devRef .tc main_v20))
        (broadcastInDim S200000 ![] bcast_S_S200000 (W (Proc.devRef .tc main_cst_2))) := by
  after_results_simp <;> rfl
theorem second_v4 : StableHlo.after Gen.hostOps2_1 W (Proc.devRef .tc main_v4) = W (Proc.devRef .tc main_v4) := by
  host_skip Gen.hostOps2_1
theorem second_v8 : StableHlo.after Gen.hostOps2_1 W (Proc.devRef .tc main_v8) = W (Proc.devRef .tc main_v8) := by
  host_skip Gen.hostOps2_1
theorem second_v12 : StableHlo.after Gen.hostOps2_1 W (Proc.devRef .tc main_v12) = W (Proc.devRef .tc main_v12) := by
  host_skip Gen.hostOps2_1
theorem second_v14 : StableHlo.after Gen.hostOps2_1 W (Proc.devRef .tc main_v14) = W (Proc.devRef .tc main_v14) := by
  host_skip Gen.hostOps2_1

end Second

/-! ## The third stretch: the coefficients, the aggregate, its two halves -/

/-- The aggregate as a function of the joined features `h`, the edges' first and second ends, their weights and the
    inverse square roots `d` of the degrees: the third stretch's operations, in its order. -/
def aggOf (h : FVec Ideal S200000x128 .bf16) (e0 e1 : IVec S800000 32) (w : FVec Ideal S800000 .f32)
    (d : FVec Ideal S200000 .f32) : FVec Ideal S200000x128 .f32 :=
  Host.scatterAdd scatter_S200000x128_S800000x1_S800000x128_1_0_0_1
    (broadcastInDim S200000x128 ![] bcast_S_S200000x128 (constant (F := Ideal) S_ .f32 0x00000000#32)) (Terms.col1 e1)
    (mulf (broadcastInDim S800000x128 ![0, 1] bcast_S800000x1_S800000x128_0_1
        (broadcastInDim S800000x1 ![0] bcast_S800000_S800000x1_0
          (mulf (mulf (Host.gather gather_S200000_S800000x1_S800000_n_0_n_n_0_1_1 d (Terms.col1 (Terms.wrap e0))) w)
            (Host.gather gather_S200000_S800000x1_S800000_n_0_n_n_0_1_1 d (Terms.col1 (Terms.wrap e1))))))
      (extf .f32 (Host.gather gather_S200000x128_S800000x1_S800000x128_1_0_n_n_0_1_1128 h (Terms.col1 (Terms.wrap e0)))
        bitsLt_bf16_f32))

/-- The aggregate of the value argument is this function at the edge ends, weights and inverse square roots computed
    from the edge list and the given weights. -/
theorem agg_eq (h : FVec Ideal S200000x128 .bf16) (a2 : IVec S2x600000 32) (a3 : FVec Ideal S600000 .f32) :
    Terms.agg h a2 a3 = aggOf h (Terms.ends0 a2) (Terms.ends1 a2) (Terms.wts a3) (Terms.dinv a2 a3) := rfl

section Third
variable (W : Valuation τ sig (Elt Ideal))

set_option maxHeartbeats 1000000 in
theorem third_v52 : StableHlo.after Gen.hostOps2_2 W (Proc.devRef .tc main_v52)
    = extractStridedSlice S100000x128 ![0, 0]
        (aggOf (W (Proc.devRef .tc main_v4)) (W (Proc.devRef .tc main_v8)) (W (Proc.devRef .tc main_v12))
          (W (Proc.devRef .tc main_v14)) (W (Proc.devRef .tc main_v21)))
        slices_S200000x128_S100000x128_0_0 := by
  after_results_simp <;> rfl

set_option maxHeartbeats 1000000 in
theorem third_v53 : StableHlo.after Gen.hostOps2_2 W (Proc.devRef .tc main_v53)
    = extractStridedSlice S100000x128 ![100000, 0]
        (aggOf (W (Proc.devRef .tc main_v4)) (W (Proc.devRef .tc main_v8)) (W (Proc.devRef .tc main_v12))
          (W (Proc.devRef .tc main_v14)) (W (Proc.devRef .tc main_v21)))
        slices_S200000x128_S100000x128_100000_0 := by
  after_results_simp <;> rfl

end Third

/-! ## The three stretches composed -/

section Composed
variable (W : Valuation τ sig (Elt Ideal))

/-- What the third stretch reads, after the first two stretches from `W`. -/
theorem mid_v4 : StableHlo.after Gen.hostOps2_1 (StableHlo.after Gen.hostOps2 W) (Proc.devRef .tc main_v4) = joined W :=
  (second_v4 _).trans (first_v4 W)
theorem mid_v8 : StableHlo.after Gen.hostOps2_1 (StableHlo.after Gen.hostOps2 W) (Proc.devRef .tc main_v8)
    = Terms.ends0 (W (Proc.devRef .tc main_arg2)) :=
  (second_v8 _).trans (first_v8 W)
theorem mid_v12 : StableHlo.after Gen.hostOps2_1 (StableHlo.after Gen.hostOps2 W) (Proc.devRef .tc main_v12)
    = Terms.ends1 (W (Proc.devRef .tc main_arg2)) :=
  (second_v12 _).trans (first_v12 W)
theorem mid_v14 : StableHlo.after Gen.hostOps2_1 (StableHlo.after Gen.hostOps2 W) (Proc.devRef .tc main_v14)
    = Terms.wts (W (Proc.devRef .tc main_arg3)) :=
  (second_v14 _).trans (first_v14 W)
theorem mid_v21 : StableHlo.after Gen.hostOps2_1 (StableHlo.after Gen.hostOps2 W) (Proc.devRef .tc main_v21)
    = Terms.dinv (W (Proc.devRef .tc main_arg2)) (W (Proc.devRef .tc main_arg3)) := by
  rw [second_v21, first_v19, first_v20, first_cst2]; rfl

/-- The aggregate the third stretch computes, after the first two stretches from `W`. -/
theorem mid_agg :
    aggOf (StableHlo.after Gen.hostOps2_1 (StableHlo.after Gen.hostOps2 W) (Proc.devRef .tc main_v4))
        (StableHlo.after Gen.hostOps2_1 (StableHlo.after Gen.hostOps2 W) (Proc.devRef .tc main_v8))
        (StableHlo.after Gen.hostOps2_1 (StableHlo.after Gen.hostOps2 W) (Proc.devRef .tc main_v12))
        (StableHlo.after Gen.hostOps2_1 (StableHlo.after Gen.hostOps2 W) (Proc.devRef .tc main_v14))
        (StableHlo.after Gen.hostOps2_1 (StableHlo.after Gen.hostOps2 W) (Proc.devRef .tc main_v21))
      = Terms.agg (joined W) (W (Proc.devRef .tc main_arg2)) (W (Proc.devRef .tc main_arg3)) := by
  rw [mid_v4, mid_v8, mid_v12, mid_v14, mid_v21, agg_eq]

/-- After the three stretches, from any contents `W`: the two halves of the aggregate. -/
theorem after_v52 :
    StableHlo.after Gen.hostOps2_2 (StableHlo.after Gen.hostOps2_1 (StableHlo.after Gen.hostOps2 W)) (Proc.devRef .tc main_v52)
      = extractStridedSlice S100000x128 ![0, 0]
          (Terms.agg (joined W) (W (Proc.devRef .tc main_arg2)) (W (Proc.devRef .tc main_arg3)))
          slices_S200000x128_S100000x128_0_0 := by
  rw [third_v52, mid_agg]
theorem after_v53 :
    StableHlo.after Gen.hostOps2_2 (StableHlo.after Gen.hostOps2_1 (StableHlo.after Gen.hostOps2 W)) (Proc.devRef .tc main_v53)
      = extractStridedSlice S100000x128 ![100000, 0]
          (Terms.agg (joined W) (W (Proc.devRef .tc main_arg2)) (W (Proc.devRef .tc main_arg3)))
          slices_S200000x128_S100000x128_100000_0 := by
  rw [third_v53, mid_agg]

end Composed

/-! ## Region 2's and region 3's first input arrays -/

variable (m : (ℓ : Loc nD τ sig) → Buf (Elt Ideal) ℓ) (ρ : Dev nD → PrngReg)

/-- Region 2 is entered with the first half of the aggregate of the first two regions' outputs, the launch's edge list
    and the launch's weights in its first input array. -/
theorem V6_v52 (c : Dev nD) :
    Gen.V6 m ρ c main_v52
      = extractStridedSlice S100000x128 ![0, 0]
          (Terms.agg
            (concatenate S200000x128 0 [⟨S100000x128, Gen.W3 m ρ c (Proc.devRef .tc main_v2)⟩,
              ⟨S100000x128, Gen.W3 m ρ c (Proc.devRef .tc main_v3)⟩] concatenates_S100000x128_S100000x128_S200000x128_d0)
            (m ((c : Thread nD τ).loc main_arg2)) (m ((c : Thread nD τ).loc main_arg3)))
          slices_S200000x128_S100000x128_0_0 := by
  have h := after_v52 (Gen.W3 m ρ c)
  rw [W3_arg2 m ρ c, W3_arg3 m ρ c] at h
  exact h

/-- The second half is what region 3's first input array holds when region 2 is entered (and, region 2 leaving it
    alone, when region 3 is). -/
theorem V6_v53 (c : Dev nD) :
    Gen.V6 m ρ c main_v53
      = extractStridedSlice S100000x128 ![100000, 0]
          (Terms.agg
            (concatenate S200000x128 0 [⟨S100000x128, Gen.W3 m ρ c (Proc.devRef .tc main_v2)⟩,
              ⟨S100000x128, Gen.W3 m ρ c (Proc.devRef .tc main_v3)⟩] concatenates_S100000x128_S100000x128_S200000x128_d0)
            (m ((c : Thread nD τ).loc main_arg2)) (m ((c : Thread nD τ).loc main_arg3)))
          slices_S200000x128_S100000x128_100000_0 := by
  have h := after_v53 (Gen.W3 m ρ c)
  rw [W3_arg2 m ρ c, W3_arg3 m ρ c] at h
  exact h

end Cert.KernelIdeal.Plumb

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«131488_j63857573757446_2_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.LibDenseRows.lean ====
/-
  A dense layer with a clamp from below, read one row at a time, over the extended reals.

  For an M × K matrix A, a K × N weight matrix w, a bias b of N numbers and a floor z, the layer sends row r of A
  to the row  j ↦ max (Σ_k A(r, k) · w(k, j) + b(j), z).  Row r of the result depends on row r of A only, so a stack
  of such layers acts on every row separately. The same row function is what the vector operations compute (a plain
  product into the zero accumulator with the weights passed through a change of float format, the bias viewed as
  one row and spread over the rows, a maximum with a splat) and what the host's operations compute (a dot_general,
  the bias broadcast along axis 1 and then over the rows, a maximum with a broadcast rank-0 constant). No
  finiteness is needed: both spellings have literally the same terms.
-/
import Idealize.ShloMosaic.Lib.ValueIdx
import Idealize.ShloMosaic.Lib.ValueLayout
import Idealize.ShloMosaic.Lib.Pipeline.Value
import Idealize.ShloMosaic.PureOps.Ideal.Laws
import proofs.«131488_j63857573757446_2_alg».proof.Proof.LibPlainDot
import proofs.«131488_j63857573757446_2_alg».proof.Proof.LibAffineRow

noncomputable section

open scoped BigOperators

namespace Idealize.ShloMosaic.DenseRows

open Idealize.ShloMosaic Idealize.ShloMosaic.ValueIdx

variable {M K N : Nat}

/-- Row r of an M × K matrix, as a function of the column. -/
def row (A : (⟨2, ![M, K]⟩ : Shape).Idx → EReal) (r : Fin M) : Fin K → EReal := fun k => A (ix2 r k)

/-- The row x · w (no bias): j ↦ Σ_k x(k) · w(k, j). -/
def rowDot (x : Fin K → EReal) (w : (⟨2, ![K, N]⟩ : Shape).Idx → EReal) : Fin N → EReal :=
  fun j => ∑ k : Fin K, x k * w (ix2 k j)

/-- One layer on one row: j ↦ max (Σ_k x(k) · w(k, j) + b(j), z). -/
def layer (z : EReal) (x : Fin K → EReal) (w : (⟨2, ![K, N]⟩ : Shape).Idx → EReal)
    (b : (⟨1, ![N]⟩ : Shape).Idx → EReal) : Fin N → EReal :=
  fun j => max (rowDot x w j + b (ix1 j)) z

/-- A change of float format does not change a row. -/
theorem row_truncf {φ ψ : FTy} (A : FVec Ideal ⟨2, ![M, K]⟩ φ) (h : ψ.bits < φ.bits) (r : Fin M) :
    row (truncf ψ A h : FVec Ideal ⟨2, ![M, K]⟩ ψ) r = row A r := rfl

/-- Row r of a plain product into the zero accumulator is row r of the left operand times the right operand. -/
theorem row_matmul {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (matmul d prec a w (constant ⟨2, ![M, N]⟩ .f32 0x00000000#32)) r = rowDot (row a r) w := by
  subst hd
  funext j
  exact PlainDot.matmul_zero_apply prec a w r j

/-- Row r of the host's plain dot_general is row r of the left operand times the right operand. -/
theorem row_dotGeneral {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (Host.dotGeneral d prec a w) r = rowDot (row a r) w := by
  subst hd
  funext j
  exact PlainDot.dotGeneral_apply prec .single a w r j

/-- The host's bias row: a vector broadcast along axis 1 into [1, N], at (0, j), is its entry j. -/
theorem rowInDim_apply {α : Type} (b : (⟨1, ![N]⟩ : Shape).Idx → α)
    (h : (⟨1, ![N]⟩ : Shape).BroadcastsInDim ⟨2, ![1, N]⟩ ![1]) (j : Fin N) :
    broadcastInDim ⟨2, ![1, N]⟩ ![1] h b (ix2 (0 : Fin 1) j) = b (ix1 j) := by
  refine broadcastInDim_apply ![1] h b (ix2 (0 : Fin 1) j) (ix1 j) fun ax => ?_
  match ax with
  | ⟨0, _⟩ =>
    show j.val = if N = 1 then 0 else j.val
    split
    · have := j.isLt; omega
    · rfl

/-- The host's spread of one row over M rows, at (r, j), is the row's entry (0, j). -/
theorem rowsInDim_apply {α : Type} (v : (⟨2, ![1, N]⟩ : Shape).Idx → α)
    (h : (⟨2, ![1, N]⟩ : Shape).BroadcastsInDim ⟨2, ![M, N]⟩ ![0, 1]) (r : Fin M) (j : Fin N) :
    broadcastInDim ⟨2, ![M, N]⟩ ![0, 1] h v (ix2 r j) = v (ix2 (0 : Fin 1) j) := by
  refine broadcastInDim_apply ![0, 1] h v (ix2 r j) (ix2 (0 : Fin 1) j) fun ax => ?_
  match ax with
  | ⟨0, _⟩ => show 0 = if (1 : Nat) = 1 then 0 else r.val; rw [if_pos rfl]
  | ⟨1, _⟩ =>
    show j.val = if N = 1 then 0 else j.val
    split
    · have := j.isLt; omega
    · rfl

/-- A rank-0 array broadcast to any shape reads its one entry everywhere. -/
theorem splat_apply {α : Type} (s : Shape) (x : (⟨0, ![]⟩ : Shape).Idx → α)
    (h : (⟨0, ![]⟩ : Shape).BroadcastsInDim s ![]) (i : s.Idx) :
    broadcastInDim s ![] h x i = x (fun a => a.elim0) :=
  broadcastInDim_apply ![] h x i (fun a => a.elim0) (fun a => a.elim0)

/-- The vector spelling of a layer, one row at a time. -/
theorem vector_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (z : Ideal .f32) (r : Fin M) :
    row (maximumf (addf (matmul d prec a (truncf .bf16 w hw) (constant ⟨2, ![M, N]⟩ .f32 0x00000000#32))
        (broadcastTo ⟨2, ![M, N]⟩ (shapeCast ⟨2, ![1, N]⟩ b h1) h2)) (broadcast ⟨2, ![M, N]⟩ z)) r
      = layer z (row a r) w b := by
  subst hd
  funext j
  show maximumf _ _ (ix2 r j) = _
  rw [maximumf_apply, broadcast_apply, AffineRow.layer_apply]
  rfl

/-- The host's spelling of a layer, one row at a time. -/
theorem host_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (zc : FVec Ideal ⟨0, ![]⟩ .f32) (h0 : (⟨0, ![]⟩ : Shape).BroadcastsInDim ⟨2, ![M, N]⟩ ![]) (r : Fin M) :
    row (maximumf (addf (Host.dotGeneral d prec a w)
        (broadcastInDim ⟨2, ![M, N]⟩ ![0, 1] h2 (broadcastInDim ⟨2, ![1, N]⟩ ![1] h1 b)))
        (broadcastInDim ⟨2, ![M, N]⟩ ![] h0 zc)) r
      = layer (zc (fun a => a.elim0)) (row a r) w b := by
  subst hd
  funext j
  show maximumf _ _ (ix2 r j) = _
  rw [maximumf_apply, addf_apply, splat_apply, rowsInDim_apply, rowInDim_apply]
  exact congrArg (fun s => max (s + b (ix1 j)) (zc fun a => a.elim0)) (PlainDot.dotGeneral_apply prec .single a w r j)

end Idealize.ShloMosaic.DenseRows

end
-- ==== Proof.Spec.lean ====
/-
  The node update on one row of 128 numbers, over the extended reals.

  For a row z: its mean is (Σ z) / 128, the deviations are d_j = z_j − mean, the variance is (Σ d_j²) / 128, and the
  scale is s = √(variance + ε). One program multiplies each deviation by 1 / s, the other divides it by s; the two
  agree because s is never 0: every d_j² is ≥ 0 in the extended reals (also at ±∞), so the variance is ≥ 0 and
  variance + ε > 0, whose square root is a positive real or +∞. A leaky rectifier follows.
  The row that is normalised is (g_j + f_j) + b_j in one program and (g_j + b_j) + f_j in the other, g the
  aggregate's row, b a bias, f_j = leaky (Σ_k x_k · w(k, j) + c_j) the dense branch: equal by commutativity and
  associativity of +, which hold on all of the extended reals.
-/
import Idealize.ShloMosaic.Lib.ValueIdx
import Idealize.ShloMosaic.PureOps.Ideal
import proofs.«131488_j63857573757446_2_alg».proof.Proof.LibDenseRows

noncomputable section

open scoped BigOperators

namespace Cert.Gcn

open Idealize.ShloMosaic Idealize.ShloMosaic.ValueIdx Idealize.ShloMosaic.DenseRows

/-- The float words the programs spell: 0, the rectifier's slope, 128, ε and 1. -/
def czero : EReal := Ideal.ofBits .f32 0x00000000#32
def slope : EReal := Ideal.ofBits .f32 0x3C23D70A#32
def c128 : EReal := Ideal.ofBits .f32 0x43000000#32
def ceps : EReal := Ideal.ofBits .f32 0x358637BD#32
def cone : EReal := Ideal.ofBits .f32 0x3F800000#32

theorem c128_eq : c128 = ((128 : ℝ) : EReal) := by
  unfold c128; simp [Ideal.ofBits, Ideal.ieee, -EReal.coe_mul] <;> norm_num

theorem cone_eq : cone = 1 := by
  unfold cone; simp [Ideal.ofBits, Ideal.ieee, -EReal.coe_mul] <;> norm_num

theorem ceps_real : ∃ r : ℝ, 0 < r ∧ ceps = (r : EReal) := by
  unfold ceps; simp [Ideal.ofBits, Ideal.ieee, -EReal.coe_mul]

/-- The leaky rectifier on one number: x where x ≥ 0, slope · x elsewhere. -/
def leaky (x : EReal) : EReal := Scalar.select (FloatOps.cmpf (F := Ideal) (φ := .f32) .oge x czero) x (slope * x)

def mean (z : Fin 128 → EReal) : EReal := Ideal.div (∑ j, z j) c128
def dev (z : Fin 128 → EReal) (j : Fin 128) : EReal := z j - mean z
def var (z : Fin 128 → EReal) : EReal := Ideal.div (∑ j, dev z j * dev z j) c128
def scale (z : Fin 128 → EReal) : EReal := Ideal.sqrt (var z + ceps)

/-- The normalised and rectified row, with the scale applied as a product with its reciprocal … -/
def normK (z : Fin 128 → EReal) : Fin 128 → EReal := fun j => leaky (dev z j * Ideal.div cone (scale z))
/-- … and as a quotient. -/
def normR (z : Fin 128 → EReal) : Fin 128 → EReal := fun j => leaky (Ideal.div (dev z j) (scale z))

theorem sq_nonneg' (d : EReal) : 0 ≤ d * d := by
  induction d using EReal.rec with
  | bot => simp
  | coe r => rw [← EReal.coe_mul]; exact_mod_cast mul_self_nonneg r
  | top => simp

theorem var_nonneg (z : Fin 128 → EReal) : 0 ≤ var z := by
  unfold var
  rw [c128_eq, Ideal.div_coe (by norm_num : (128 : ℝ) ≠ 0)]
  exact mul_nonneg (Finset.sum_nonneg fun j _ => sq_nonneg' _) (by exact_mod_cast (by norm_num : (0 : ℝ) ≤ 1 / 128))

theorem sqrt_ne_zero_of_pos {x : EReal} (h : 0 < x) : Ideal.sqrt x ≠ 0 := by
  induction x using EReal.rec with
  | bot => exact absurd h (by simp)
  | coe r =>
    have hr : 0 < r := by exact_mod_cast h
    rw [Ideal.sqrt_coe, if_neg (not_lt.mpr hr.le)]
    exact_mod_cast (Real.sqrt_pos.mpr hr).ne'
  | top => simp

theorem scale_ne_zero (z : Fin 128 → EReal) : scale z ≠ 0 := by
  refine sqrt_ne_zero_of_pos ?_
  obtain ⟨r, hr, he⟩ := ceps_real
  have hv := var_nonneg z
  rw [he]
  induction hx : var z using EReal.rec with
  | bot => rw [hx] at hv; exact absurd hv (by simp)
  | coe v =>
    rw [hx] at hv
    have hv' : 0 ≤ v := by exact_mod_cast hv
    rw [← EReal.coe_add]; exact_mod_cast add_pos_of_nonneg_of_pos hv' hr
  | top => simp

/-- A product with the reciprocal of a nonzero scale is the quotient by it. -/
theorem mul_recip (d s : EReal) (hs : s ≠ 0) : d * Ideal.div cone s = Ideal.div d s := by
  rw [Ideal.div, if_neg hs, Ideal.div, if_neg hs, cone_eq, one_mul]

theorem norm_eq (z : Fin 128 → EReal) : normK z = normR z := by
  funext j
  unfold normK normR
  rw [mul_recip _ _ (scale_ne_zero z)]

/-- The dense branch on one row: leaky (Σ_k x_k · w(k, j) + c_j). -/
def dense (x : Fin 128 → EReal) (w : (⟨2, ![128, 128]⟩ : Shape).Idx → EReal) (c : Fin 128 → EReal) : Fin 128 → EReal :=
  fun j => leaky (rowDot x w j + c j)

/-- One program's row: normalise (g + f) + b, scale by product. -/
def combK (g x : Fin 128 → EReal) (w : (⟨2, ![128, 128]⟩ : Shape).Idx → EReal) (c b : Fin 128 → EReal) : Fin 128 → EReal :=
  normK fun j => (g j + dense x w c j) + b j

/-- The other program's row: normalise (g + b) + f, scale by quotient. -/
def combR (g x : Fin 128 → EReal) (w : (⟨2, ![128, 128]⟩ : Shape).Idx → EReal) (c b : Fin 128 → EReal) : Fin 128 → EReal :=
  normR fun j => (g j + b j) + dense x w c j

theorem comb_eq (g x : Fin 128 → EReal) (w : (⟨2, ![128, 128]⟩ : Shape).Idx → EReal) (c b : Fin 128 → EReal) :
    combK g x w c b = combR g x w c b := by
  unfold combK combR
  rw [norm_eq]
  exact congrArg normR (funext fun j => add_right_comm _ _ _)

/-- The projection of every node's row: entry (i, j) is Σ_k x(i, k) · w(k, j). -/
def projArr (x : (⟨2, ![100000, 128]⟩ : Shape).Idx → EReal) (w : (⟨2, ![128, 128]⟩ : Shape).Idx → EReal) :
    (⟨2, ![100000, 128]⟩ : Shape).Idx → EReal :=
  fun i => rowDot (row x ⟨(i 0).val, idx2_lt0 i⟩) w ⟨(i 1).val, idx2_lt1 i⟩

theorem projArr_apply (x : (⟨2, ![100000, 128]⟩ : Shape).Idx → EReal) (w : (⟨2, ![128, 128]⟩ : Shape).Idx → EReal)
    (p : Fin 100000) (q : Fin 128) : projArr x w (ix2 p q) = rowDot (row x p) w q := rfl

/-- One half of the nodes updated row by row: row i of the result is combK of row i of the aggregate g and row i of
    the features x, the two biases given as 1 × 128 tables. -/
def combArr (g x : (⟨2, ![100000, 128]⟩ : Shape).Idx → EReal) (w : (⟨2, ![128, 128]⟩ : Shape).Idx → EReal)
    (c b : (⟨2, ![1, 128]⟩ : Shape).Idx → EReal) : (⟨2, ![100000, 128]⟩ : Shape).Idx → EReal :=
  fun i => combK (row g ⟨(i 0).val, idx2_lt0 i⟩) (row x ⟨(i 0).val, idx2_lt0 i⟩) w
    (fun j => c (ix2 (0 : Fin 1) j)) (fun j => b (ix2 (0 : Fin 1) j)) ⟨(i 1).val, idx2_lt1 i⟩

theorem combArr_apply (g x : (⟨2, ![100000, 128]⟩ : Shape).Idx → EReal) (w : (⟨2, ![128, 128]⟩ : Shape).Idx → EReal)
    (c b : (⟨2, ![1, 128]⟩ : Shape).Idx → EReal) (p : Fin 100000) (q : Fin 128) :
    combArr g x w c b (ix2 p q)
      = combK (row g p) (row x p) w (fun j => c (ix2 (0 : Fin 1) j)) (fun j => b (ix2 (0 : Fin 1) j)) q := rfl

end Cert.Gcn

end
-- ==== Proof.RegionProj.lean ====
/-
  The two projection regions, from blocks to arrays.

  Each region runs over 20 grid points. At point t it reads rows 5000 t … 5000 t + 4999 of a 100000 × 128 array x and
  the whole 128 × 128 weight array w, and writes rows 5000 t … 5000 t + 4999 of the result: entry (p, q) of that block
  is Σ_k x(5000 t + p, k) · w(k, q). The 20 blocks tile the result (row r lies in block r / 5000), so after the region
  the result array is the projection (i, j) ↦ Σ_k x(i, k) · w(k, j) of the arrays the region found, whatever those are.
-/
import proofs.«131488_j63857573757446_2_alg».proof.Proof.Gen.KernelIdeal.Frame
import proofs.«131488_j63857573757446_2_alg».proof.Proof.LibDenseRows
import proofs.«131488_j63857573757446_2_alg».proof.Proof.Spec
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseRows

variable (V : (c : Dev nD) → (b : Ref sig .tc) → Buf (Elt Ideal) ((c : Thread nD τ).loc b))

/-- The body's product contracts axis 1 of its left operand with axis 0 of its right one, with no batch axes. -/
theorem dot_plain : dot_S5000x128_S128x128_S5000x128_1_0_0_1_n_n = DotDims.plain 5000 128 128 := rfl

/-- The offset (0, 0) of the body's loads and of its store. -/
theorem zero_off : (![0, 0] : Fin 2 → Nat) = fun _ => 0 := funext fun a => by fin_cases a <;> rfl

/-! ## Region 0: the projection of main_arg0 -/

/-- Row p of the body's result is row p of its first operand times its second: the two changes of float format are
    the identity over the extended reals, and the product goes into the zero accumulator. -/
theorem proj_row0 (v0 : FVec Ideal S5000x128 .f32) (v2 : FVec Ideal S128x128 .f32) (p : Fin 5000) :
    row (Gen.k0_pay1 (F := Ideal) v0 v2) p = rowDot (row v0 p) v2 := by
  unfold Gen.k0_pay1
  exact row_matmul _ dot_plain none _ _ p

/-- The block indices over the 20 grid points: the row-blocked operand and the result sit at block (t, 0), the
    weights at block (0, 0). -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the body's result, when row (j 0) of the block x0 is row (i 0) of the array X and the block x1 is the
    whole of W: it is entry (i 0, j 1) of the projection of X by W. -/
theorem proj_point0 (X : S100000x128.Idx → EReal) (W : S128x128.Idx → EReal)
    (x0 : FVec Ideal S5000x128 .f32) (x1 : FVec Ideal S128x128 .f32) (j : S5000x128.Idx) (i : S100000x128.Idx)
    (h0 : ∀ k : Fin 128, x0 (ix2 ⟨(j 0).val, idx2_lt0 j⟩ k) = X (ix2 ⟨(i 0).val, idx2_lt0 i⟩ k))
    (h1 : x1 = W) (hq : (i 1).val = (j 1).val) :
    Gen.k0_pay1 (F := Ideal) x0 x1 j = Cert.Gcn.projArr X W i := by
  subst h1
  refine (congrArg (Gen.k0_pay1 (F := Ideal) x0 x1) (eq_ix2 j)).trans ?_
  refine (congrFun (proj_row0 x0 x1 ⟨(j 0).val, idx2_lt0 j⟩) ⟨(j 1).val, idx2_lt1 j⟩).trans ?_
  show rowDot (row x0 ⟨(j 0).val, idx2_lt0 j⟩) x1 ⟨(j 1).val, idx2_lt1 j⟩
    = rowDot (row X ⟨(i 0).val, idx2_lt0 i⟩) x1 ⟨(i 1).val, idx2_lt1 i⟩
  rw [show (⟨(i 1).val, idx2_lt1 i⟩ : Fin 128) = ⟨(j 1).val, idx2_lt1 j⟩ from Fin.ext hq,
    show row X ⟨(i 0).val, idx2_lt0 i⟩ = row x0 ⟨(j 0).val, idx2_lt0 j⟩ from funext fun k => (h0 k).symm]

/-- What point t writes back is block t of the projection of the arrays as the region finds them: entry (p, q) of the
    block is row 5000 t + p of main_arg0 times the weights, at column q. -/
theorem written0 (c : Dev nD) (t : Fin cfg0.N) :
    (Gen.dat0 V c).flushed 2 t
      = ((cfg0.win 2).blk t).view.read (Elt Ideal) (Cert.Gcn.projArr (V c main_arg0) (V c main_arg4)) := by
  show (cfg0.win 2).cut (grid0.coords t) ((Gen.dat0 V c).after 2 t) = _
  rw [Gen.after0_2]
  unfold Gen.out0_2
  rw [View.canon_unit_zero zero_off]
  simp only [View.ld_unit_zero (S := S5000x128) zero_off, View.ld_unit_zero (S := S128x128) zero_off]
  obtain ⟨e0, e1, e2, e3, e4, e5⟩ := block_index0 t
  funext j
  show Gen.k0_pay1 (F := Ideal) (Gen.iblk0 V c 0 t) (Gen.iblk0 V c 1 t) j
    = Cert.Gcn.projArr (V c main_arg0) (V c main_arg4) (((cfg0.win 2).blk t).view.emb j)
  refine proj_point0 (V c main_arg0) (V c main_arg4) _ _ j _ (fun k => ?_) (funext fun y => ?_) ?_
  · -- the operand's block and the result's block start at the same row
    show V c main_arg0 (((cfg0.win 0).blk t).view.emb (ix2 ⟨(j 0).val, idx2_lt0 j⟩ k)) = V c main_arg0 _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 128 + 1 * k.val = k.val
      rw [e1]; omega
  · -- the weights' block is the whole array
    show V c main_arg4 (((cfg0.win 1).blk t).view.emb y) = V c main_arg4 y
    refine congrArg (V c main_arg4) (funext fun a => Fin.ext ?_)
    match a with
    | ⟨0, _⟩ =>
      show win0_1.index t (0 : Fin 2) * 128 + 1 * (y 0).val = (y 0).val
      rw [e2]; omega
    | ⟨1, _⟩ =>
      show win0_1.index t (1 : Fin 2) * 128 + 1 * (y 1).val = (y 1).val
      rw [e3]; omega
  · show win0_2.index t (1 : Fin 2) * 128 + 1 * (j 1).val = (j 1).val
    rw [e5]; omega

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v2).slice (win0_2.rect t)).set ↔ _
  rw [View.set_slice_whole, Rect.mem_set_unit]
  exact Iff.rfl

/-- Every index of the result array is in some point's block: row r is in the block of point r / 5000. -/
theorem cover0 (i : S100000x128.Idx) :
    ∃ t : Fin cfg0.N, (cfg0.win 2).flush t = true ∧ i ∈ ((cfg0.win 2).blk t).view.set := by
  have hN : cfg0.N = 20 := Gen.N_0
  have hi0 : (i 0).val < 100000 := idx2_lt0 i
  have hi1 : (i 1).val < 128 := idx2_lt1 i
  have ht : (i 0).val / 5000 < cfg0.N := by rw [hN]; omega
  obtain ⟨e0, e1, e2, e3, e4, e5⟩ := block_index0 ⟨(i 0).val / 5000, ht⟩
  refine ⟨⟨(i 0).val / 5000, ht⟩, Gen.flush0_2 _, ?_⟩
  rw [mem_block0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- The result array after the region: the projection of main_arg0 by the weights, entry by entry. -/
theorem proj0 (c : Dev nD) :
    (Gen.dat0 V c).arrAt 2 cfg0.N = Cert.Gcn.projArr (V c main_arg0) (V c main_arg4) :=
  (Gen.dat0 V c).arrAt_eq_of_cover 2 _ (fun t _ => written0 V c t) cover0

/-! ## Region 1: the projection of main_arg1 -/

/-- Row p of the body's result is row p of its first operand times its second: the two changes of float format are
    the identity over the extended reals, and the product goes into the zero accumulator. -/
theorem proj_row1 (v0 : FVec Ideal S5000x128 .f32) (v2 : FVec Ideal S128x128 .f32) (p : Fin 5000) :
    row (Gen.k1_pay1 (F := Ideal) v0 v2) p = rowDot (row v0 p) v2 := by
  unfold Gen.k1_pay1
  exact row_matmul _ dot_plain none _ _ p

/-- The block indices over the 20 grid points: the row-blocked operand and the result sit at block (t, 0), the
    weights at block (0, 0). -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the body's result, when row (j 0) of the block x0 is row (i 0) of the array X and the block x1 is the
    whole of W: it is entry (i 0, j 1) of the projection of X by W. -/
theorem proj_point1 (X : S100000x128.Idx → EReal) (W : S128x128.Idx → EReal)
    (x0 : FVec Ideal S5000x128 .f32) (x1 : FVec Ideal S128x128 .f32) (j : S5000x128.Idx) (i : S100000x128.Idx)
    (h0 : ∀ k : Fin 128, x0 (ix2 ⟨(j 0).val, idx2_lt0 j⟩ k) = X (ix2 ⟨(i 0).val, idx2_lt0 i⟩ k))
    (h1 : x1 = W) (hq : (i 1).val = (j 1).val) :
    Gen.k1_pay1 (F := Ideal) x0 x1 j = Cert.Gcn.projArr X W i := by
  subst h1
  refine (congrArg (Gen.k1_pay1 (F := Ideal) x0 x1) (eq_ix2 j)).trans ?_
  refine (congrFun (proj_row1 x0 x1 ⟨(j 0).val, idx2_lt0 j⟩) ⟨(j 1).val, idx2_lt1 j⟩).trans ?_
  show rowDot (row x0 ⟨(j 0).val, idx2_lt0 j⟩) x1 ⟨(j 1).val, idx2_lt1 j⟩
    = rowDot (row X ⟨(i 0).val, idx2_lt0 i⟩) x1 ⟨(i 1).val, idx2_lt1 i⟩
  rw [show (⟨(i 1).val, idx2_lt1 i⟩ : Fin 128) = ⟨(j 1).val, idx2_lt1 j⟩ from Fin.ext hq,
    show row X ⟨(i 0).val, idx2_lt0 i⟩ = row x0 ⟨(j 0).val, idx2_lt0 j⟩ from funext fun k => (h0 k).symm]

/-- What point t writes back is block t of the projection of the arrays as the region finds them: entry (p, q) of the
    block is row 5000 t + p of main_arg1 times the weights, at column q. -/
theorem written1 (c : Dev nD) (t : Fin cfg1.N) :
    (Gen.dat1 V c).flushed 2 t
      = ((cfg1.win 2).blk t).view.read (Elt Ideal) (Cert.Gcn.projArr (V c main_arg1) (V c main_arg4)) := by
  show (cfg1.win 2).cut (grid1.coords t) ((Gen.dat1 V c).after 2 t) = _
  rw [Gen.after1_2]
  unfold Gen.out1_2
  rw [View.canon_unit_zero zero_off]
  simp only [View.ld_unit_zero (S := S5000x128) zero_off, View.ld_unit_zero (S := S128x128) zero_off]
  obtain ⟨e0, e1, e2, e3, e4, e5⟩ := block_index1 t
  funext j
  show Gen.k1_pay1 (F := Ideal) (Gen.iblk1 V c 0 t) (Gen.iblk1 V c 1 t) j
    = Cert.Gcn.projArr (V c main_arg1) (V c main_arg4) (((cfg1.win 2).blk t).view.emb j)
  refine proj_point1 (V c main_arg1) (V c main_arg4) _ _ j _ (fun k => ?_) (funext fun y => ?_) ?_
  · -- the operand's block and the result's block start at the same row
    show V c main_arg1 (((cfg1.win 0).blk t).view.emb (ix2 ⟨(j 0).val, idx2_lt0 j⟩ k)) = V c main_arg1 _
    refine congrArg (V c main_arg1) (funext fun a => Fin.ext ?_)
    match a with
    | ⟨0, _⟩ =>
      show win1_0.index t (0 : Fin 2) * 5000 + 1 * (j 0).val = win1_2.index t (0 : Fin 2) * 5000 + 1 * (j 0).val
      rw [e0, e4]
    | ⟨1, _⟩ =>
      show win1_0.index t (1 : Fin 2) * 128 + 1 * k.val = k.val
      rw [e1]; omega
  · -- the weights' block is the whole array
    show V c main_arg4 (((cfg1.win 1).blk t).view.emb y) = V c main_arg4 y
    refine congrArg (V c main_arg4) (funext fun a => Fin.ext ?_)
    match a with
    | ⟨0, _⟩ =>
      show win1_1.index t (0 : Fin 2) * 128 + 1 * (y 0).val = (y 0).val
      rw [e2]; omega
    | ⟨1, _⟩ =>
      show win1_1.index t (1 : Fin 2) * 128 + 1 * (y 1).val = (y 1).val
      rw [e3]; omega
  · show win1_2.index t (1 : Fin 2) * 128 + 1 * (j 1).val = (j 1).val
    rw [e5]; omega

/-- An index of the result array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v3).slice (win1_2.rect t)).set ↔ _
  rw [View.set_slice_whole, Rect.mem_set_unit]
  exact Iff.rfl

/-- Every index of the result array is in some point's block: row r is in the block of point r / 5000. -/
theorem cover1 (i : S100000x128.Idx) :
    ∃ t : Fin cfg1.N, (cfg1.win 2).flush t = true ∧ i ∈ ((cfg1.win 2).blk t).view.set := by
  have hN : cfg1.N = 20 := Gen.N_1
  have hi0 : (i 0).val < 100000 := idx2_lt0 i
  have hi1 : (i 1).val < 128 := idx2_lt1 i
  have ht : (i 0).val / 5000 < cfg1.N := by rw [hN]; omega
  obtain ⟨e0, e1, e2, e3, e4, e5⟩ := block_index1 ⟨(i 0).val / 5000, ht⟩
  refine ⟨⟨(i 0).val / 5000, ht⟩, Gen.flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]
    omega

/-- The result array after the region: the projection of main_arg1 by the weights, entry by entry. -/
theorem proj1 (c : Dev nD) :
    (Gen.dat1 V c).arrAt 2 cfg1.N = Cert.Gcn.projArr (V c main_arg1) (V c main_arg4) :=
  (Gen.dat1 V c).arrAt_eq_of_cover 2 _ (fun t _ => written1 V c t) cover1

end Cert.KernelIdeal.Regions

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.CombPayload.lean ====
/-
  What the node-update body stores, read one row at a time.

  The body loads a block of 5000 rows of the aggregate g and of the features x, the 128 × 128 weights w and the two
  biases c, b as 1 × 128 rows. Row p of what it stores depends on row p of g and of x only: it forms
  z_j = (g(p, j) + leaky (Σ_k x(p, k) · w(k, j) + c_j)) + b_j, the row's mean and deviations, the variance, the
  scale √(variance + ε), and stores leaky (deviation · (1 / scale)).
-/
import proofs.«131488_j63857573757446_2_alg».proof.Proof.Gen.KernelIdeal.Skeleton
import proofs.«131488_j63857573757446_2_alg».proof.Proof.Gen.KernelIdeal
import proofs.«131488_j63857573757446_2_alg».proof.Proof.Spec
import proofs.«131488_j63857573757446_2_alg».proof.Proof.LibRowOps
import proofs.«131488_j63857573757446_2_alg».proof.Proof.LibRowSpread
import Idealize.ShloMosaic.Lib.Pipeline.Value
import Idealize.ShloMosaic.Lib.ValueLayout

noncomputable section

open scoped BigOperators

namespace Cert.KernelIdeal.Payload

open Idealize.ShloMosaic Idealize.ShloMosaic.ValueIdx Idealize.ShloMosaic.DenseRows Cert.KernelIdeal

/-- The row that is normalised, from row p of the loaded blocks. -/
def zrow (v0 : FVec Ideal S5000x128 .f32) (v2 : FVec Ideal S128x128 .f32) (v5 : FVec Ideal S1x128 .f32)
    (v14 : FVec Ideal S5000x128 .f32) (v17 : FVec Ideal S1x128 .f32) (p : Fin 5000) : Fin 128 → EReal :=
  fun j => (v14 (ix2 p j) + Gcn.dense (row v0 p) v2 (fun j => v5 (ix2 (0 : Fin 1) j)) j) + v17 (ix2 (0 : Fin 1) j)

/-- The row that is normalised, at (p, j): (g + leaky (x · w + c)) + b. -/
theorem pay2_pre (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k2_pay2 (F := Ideal) v0 v2 v5 v14 v17 (ix2 p j) = zrow v0 v2 v5 v14 v17 p j := by
  unfold Gen.k2_pay2
  have hm : ∀ q : Fin 128, matmul dot_S5000x128_S128x128_S5000x128_1_0_0_1_n_n none (truncf FTy.bf16 v0 Gen.bitsLt_bf16_f32)
      (truncf FTy.bf16 v2 Gen.bitsLt_bf16_f32) (constant S5000x128 FTy.f32 0x00000000#32) (ix2 p q) = rowDot (row v0 p) v2 q :=
    fun q => congrFun (row_matmul dot_S5000x128_S128x128_S5000x128_1_0_0_1_n_n rfl none
      (truncf FTy.bf16 v0 Gen.bitsLt_bf16_f32) (truncf FTy.bf16 v2 Gen.bitsLt_bf16_f32) p) q
  simp only [addf_apply, select_apply, cmpf_apply, mulf_apply, broadcast_apply, shapeCast_self, RowSpread.rowBcast_apply, hm]
  rfl

/-- The mean column at (p, 0). -/
theorem pay2_mean (v0 : FVec Ideal S5000x128 .f32) (v2 : FVec Ideal S128x128 .f32) (v5 : FVec Ideal S1x128 .f32)
    (v14 : FVec Ideal S5000x128 .f32) (v17 : FVec Ideal S1x128 .f32) (p : Fin 5000) :
    Gen.k2_pay3 (F := Ideal) v0 v2 v5 v14 v17 (ix2 p (0 : Fin 1)) = Gcn.mean (zrow v0 v2 v5 v14 v17 p) := by
  unfold Gen.k2_pay3
  rw [divf_apply, RowOps.colCast_apply, broadcast_apply]
  refine congrArg (fun s => Ideal.div s _) ?_
  refine (RowOps.rowSum_vector _ _ _ _ _ p).trans ?_
  exact Finset.sum_congr rfl fun j _ => pay2_pre v0 v2 v5 v14 v17 p j

/-- The deviations at (p, j). -/
theorem pay2_dev (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k2_pay4 (F := Ideal) v0 v2 v5 v14 v17 (ix2 p j) = Gcn.dev (zrow v0 v2 v5 v14 v17 p) j := by
  unfold Gen.k2_pay4
  rw [subf_apply, RowOps.colBcast_apply, pay2_pre, pay2_mean]
  rfl

/-- The reciprocal of the scale, spread over the row, at (p, j). -/
theorem pay2_recip (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k2_pay5 (F := Ideal) v0 v2 v5 v14 v17 (ix2 p j) = Ideal.div Gcn.cone (Gcn.scale (zrow v0 v2 v5 v14 v17 p)) := by
  unfold Gen.k2_pay5
  rw [RowOps.colBcast_apply, divf_apply, broadcast_apply]
  refine congrArg (fun s => Ideal.div _ (Ideal.sqrt s)) ?_
  rw [addf_apply, divf_apply, RowOps.colCast_apply, broadcast_apply, broadcast_apply]
  refine congrArg (fun s => Ideal.div s _ + _) ?_
  refine (RowOps.rowSum_vector _ _ _ _ _ p).trans ?_
  refine Finset.sum_congr rfl fun q _ => ?_
  rw [mulf_apply, subf_apply, RowOps.colBcast_apply, pay2_pre, pay2_mean]
  rfl

/-- Row p of what the body stores is the node update of row p of its loaded blocks. -/
theorem comb_row2 (v0 : FVec Ideal S5000x128 .f32) (v2 : FVec Ideal S128x128 .f32) (v5 : FVec Ideal S1x128 .f32)
    (v14 : FVec Ideal S5000x128 .f32) (v17 : FVec Ideal S1x128 .f32) (p : Fin 5000) :
    row (Gen.k2_pay1 (F := Ideal) (Gen.k2_pay4 (F := Ideal) v0 v2 v5 v14 v17) (Gen.k2_pay5 (F := Ideal) v0 v2 v5 v14 v17)) p
      = Gcn.combK (row v14 p) (row v0 p) v2 (fun j => v5 (ix2 (0 : Fin 1) j)) (fun j => v17 (ix2 (0 : Fin 1) j)) := by
  funext j
  show Gen.k2_pay1 (F := Ideal) (Gen.k2_pay4 (F := Ideal) v0 v2 v5 v14 v17) (Gen.k2_pay5 (F := Ideal) v0 v2 v5 v14 v17) (ix2 p j) = _
  unfold Gen.k2_pay1
  simp only [select_apply, cmpf_apply, mulf_apply, broadcast_apply, pay2_dev, pay2_recip]
  rfl

/-- The row that is normalised, at (p, j): (g + leaky (x · w + c)) + b. -/
theorem pay3_pre (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k3_pay2 (F := Ideal) v0 v2 v5 v14 v17 (ix2 p j) = zrow v0 v2 v5 v14 v17 p j := by
  unfold Gen.k3_pay2
  have hm : ∀ q : Fin 128, matmul dot_S5000x128_S128x128_S5000x128_1_0_0_1_n_n none (truncf FTy.bf16 v0 Gen.bitsLt_bf16_f32)
      (truncf FTy.bf16 v2 Gen.bitsLt_bf16_f32) (constant S5000x128 FTy.f32 0x00000000#32) (ix2 p q) = rowDot (row v0 p) v2 q :=
    fun q => congrFun (row_matmul dot_S5000x128_S128x128_S5000x128_1_0_0_1_n_n rfl none
      (truncf FTy.bf16 v0 Gen.bitsLt_bf16_f32) (truncf FTy.bf16 v2 Gen.bitsLt_bf16_f32) p) q
  simp only [addf_apply, select_apply, cmpf_apply, mulf_apply, broadcast_apply, shapeCast_self, RowSpread.rowBcast_apply, hm]
  rfl

/-- The mean column at (p, 0). -/
theorem pay3_mean (v0 : FVec Ideal S5000x128 .f32) (v2 : FVec Ideal S128x128 .f32) (v5 : FVec Ideal S1x128 .f32)
    (v14 : FVec Ideal S5000x128 .f32) (v17 : FVec Ideal S1x128 .f32) (p : Fin 5000) :
    Gen.k3_pay3 (F := Ideal) v0 v2 v5 v14 v17 (ix2 p (0 : Fin 1)) = Gcn.mean (zrow v0 v2 v5 v14 v17 p) := by
  unfold Gen.k3_pay3
  rw [divf_apply, RowOps.colCast_apply, broadcast_apply]
  refine congrArg (fun s => Ideal.div s _) ?_
  refine (RowOps.rowSum_vector _ _ _ _ _ p).trans ?_
  exact Finset.sum_congr rfl fun j _ => pay3_pre v0 v2 v5 v14 v17 p j

/-- The deviations at (p, j). -/
theorem pay3_dev (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k3_pay4 (F := Ideal) v0 v2 v5 v14 v17 (ix2 p j) = Gcn.dev (zrow v0 v2 v5 v14 v17 p) j := by
  unfold Gen.k3_pay4
  rw [subf_apply, RowOps.colBcast_apply, pay3_pre, pay3_mean]
  rfl

/-- The reciprocal of the scale, spread over the row, at (p, j). -/
theorem pay3_recip (v0 : FVec Ideal S5000x128 .f32) (v2 : FVec Ideal S128x128 .f32) (v5 : FVec Ideal S1x128 .f32)
    (v14 : FVec Ideal S5000x128 .f32) (v17 : FVec Ideal S1x128 .f32) (p : Fin 5000) (j : Fin 128) :
    Gen.k3_pay5 (F := Ideal) v0 v2 v5 v14 v17 (ix2 p j) = Ideal.div Gcn.cone (Gcn.scale (zrow v0 v2 v5 v14 v17 p)) := by
  unfold Gen.k3_pay5
  rw [RowOps.colBcast_apply, divf_apply, broadcast_apply]
  refine congrArg (fun s => Ideal.div _ (Ideal.sqrt s)) ?_
  rw [addf_apply, divf_apply, RowOps.colCast_apply, broadcast_apply, broadcast_apply]
  refine congrArg (fun s => Ideal.div s _ + _) ?_
  refine (RowOps.rowSum_vector _ _ _ _ _ p).trans ?_
  refine Finset.sum_congr rfl fun q _ => ?_
  rw [mulf_apply, subf_apply, RowOps.colBcast_apply, pay3_pre, pay3_mean]
  rfl

/-- Row p of what the body stores is the node update of row p of its loaded blocks. -/
theorem comb_row3 (v0 : FVec Ideal S5000x128 .f32) (v2 : FVec Ideal S128x128 .f32) (v5 : FVec Ideal S1x128 .f32)
    (v14 : FVec Ideal S5000x128 .f32) (v17 : FVec Ideal S1x128 .f32) (p : Fin 5000) :
    row (Gen.k3_pay1 (F := Ideal) (Gen.k3_pay4 (F := Ideal) v0 v2 v5 v14 v17) (Gen.k3_pay5 (F := Ideal) v0 v2 v5 v14 v17)) p
      = Gcn.combK (row v14 p) (row v0 p) v2 (fun j => v5 (ix2 (0 : Fin 1) j)) (fun j => v17 (ix2 (0 : Fin 1) j)) := by
  funext j
  show Gen.k3_pay1 (F := Ideal) (Gen.k3_pay4 (F := Ideal) v0 v2 v5 v14 v17) (Gen.k3_pay5 (F := Ideal) v0 v2 v5 v14 v17) (ix2 p j) = _
  unfold Gen.k3_pay1
  simp only [select_apply, cmpf_apply, mulf_apply, broadcast_apply, pay3_dev, pay3_recip]
  rfl

end Cert.KernelIdeal.Payload

end
-- ==== Proof.RegionComb.lean ====
/-
  The two update regions, from blocks to arrays.

  Each region runs over 20 grid points. At point t it reads rows 5000 t … 5000 t + 4999 of the aggregate g and of the
  features x (both 100000 × 128), the whole 128 × 128 weight array w and the two whole 1 × 128 bias rows c and b, and
  writes rows 5000 t … 5000 t + 4999 of the result: row p of that block is the update of row 5000 t + p, which depends
  on that row of g and of x only. The 20 blocks tile the result (row r lies in block r / 5000), so after the region
  the result array is the row-by-row update of the arrays the region found, whatever those are.
-/
import proofs.«131488_j63857573757446_2_alg».proof.Proof.Gen.KernelIdeal.Frame
import proofs.«131488_j63857573757446_2_alg».proof.Proof.LibDenseRows
import proofs.«131488_j63857573757446_2_alg».proof.Proof.Spec
import proofs.«131488_j63857573757446_2_alg».proof.Proof.CombPayload
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DenseRows

variable (V : (c : Dev nD) → (b : Ref sig .tc) → Buf (Elt Ideal) ((c : Thread nD τ).loc b))

/-- The offset (0, 0) of the body's loads and of its store. -/
theorem origin_off : (![0, 0] : Fin 2 → Nat) = fun _ => 0 := funext fun a => by fin_cases a <;> rfl

/-! ## Region 2: the update of the rows of main_arg0 with the aggregate main_v52 -/

/-- The block indices over the 20 grid points: the aggregate, the features and the result sit at block (t, 0), the
    weights and the two bias rows at block (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of the body's result, when row (j 0) of the blocks v14 and v0 is row (i 0) of the arrays G and X and
    the other three blocks are the whole of W, C and B: it is entry (i 0, j 1) of the row-by-row update of X with G. -/
theorem comb_point2 (G X : S100000x128.Idx → EReal) (W : S128x128.Idx → EReal) (C B : S1x128.Idx → EReal)
    (v0 : FVec Ideal S5000x128 .f32) (v2 : FVec Ideal S128x128 .f32) (v5 : FVec Ideal S1x128 .f32)
    (v14 : FVec Ideal S5000x128 .f32) (v17 : FVec Ideal S1x128 .f32) (j : S5000x128.Idx) (i : S100000x128.Idx)
    (hg : ∀ k : Fin 128, v14 (ix2 ⟨(j 0).val, idx2_lt0 j⟩ k) = G (ix2 ⟨(i 0).val, idx2_lt0 i⟩ k))
    (hx : ∀ k : Fin 128, v0 (ix2 ⟨(j 0).val, idx2_lt0 j⟩ k) = X (ix2 ⟨(i 0).val, idx2_lt0 i⟩ k))
    (hw : v2 = W) (hc : v5 = C) (hb : v17 = B) (hq : (i 1).val = (j 1).val) :
    Gen.k2_pay1 (F := Ideal) (Gen.k2_pay4 (F := Ideal) v0 v2 v5 v14 v17) (Gen.k2_pay5 (F := Ideal) v0 v2 v5 v14 v17) j
      = Cert.Gcn.combArr G X W C B i := by
  subst hw hc hb
  refine (congrArg (Gen.k2_pay1 (F := Ideal) (Gen.k2_pay4 (F := Ideal) v0 v2 v5 v14 v17)
    (Gen.k2_pay5 (F := Ideal) v0 v2 v5 v14 v17)) (eq_ix2 j)).trans ?_
  refine (congrFun (Payload.comb_row2 v0 v2 v5 v14 v17 ⟨(j 0).val, idx2_lt0 j⟩) ⟨(j 1).val, idx2_lt1 j⟩).trans ?_
  show Cert.Gcn.combK (row v14 ⟨(j 0).val, idx2_lt0 j⟩) (row v0 ⟨(j 0).val, idx2_lt0 j⟩) v2
      (fun q => v5 (ix2 (0 : Fin 1) q)) (fun q => v17 (ix2 (0 : Fin 1) q)) ⟨(j 1).val, idx2_lt1 j⟩
    = Cert.Gcn.combK (row G ⟨(i 0).val, idx2_lt0 i⟩) (row X ⟨(i 0).val, idx2_lt0 i⟩) v2
      (fun q => v5 (ix2 (0 : Fin 1) q)) (fun q => v17 (ix2 (0 : Fin 1) q)) ⟨(i 1).val, idx2_lt1 i⟩
  rw [show (⟨(i 1).val, idx2_lt1 i⟩ : Fin 128) = ⟨(j 1).val, idx2_lt1 j⟩ from Fin.ext hq,
    show row G ⟨(i 0).val, idx2_lt0 i⟩ = row v14 ⟨(j 0).val, idx2_lt0 j⟩ from funext fun k => (hg k).symm,
    show row X ⟨(i 0).val, idx2_lt0 i⟩ = row v0 ⟨(j 0).val, idx2_lt0 j⟩ from funext fun k => (hx k).symm]

/-- What point t writes back is block t of the row-by-row update of the arrays as the region finds them: row p of the
    block is the update of row 5000 t + p of main_arg0 with row 5000 t + p of main_v52. -/
theorem written2 (c : Dev nD) (t : Fin cfg2.N) :
    (Gen.dat2 V c).flushed 5 t
      = ((cfg2.win 5).blk t).view.read (Elt Ideal)
          (Cert.Gcn.combArr (V c main_v52) (V c main_arg0) (V c main_arg6) (V c main_v1) (V c main_v0)) := by
  show (cfg2.win 5).cut (grid2.coords t) ((Gen.dat2 V c).after 5 t) = _
  rw [Gen.after2_5]
  unfold Gen.out2_5
  rw [View.canon_unit_zero origin_off]
  simp only [View.ld_unit_zero (S := S5000x128) origin_off, View.ld_unit_zero (S := S128x128) origin_off,
    View.ld_unit_zero (S := S1x128) origin_off]
  obtain ⟨g0, g1, x0, x1, w0, w1, c0, c1, b0, b1, o0, o1⟩ := block_index2 t
  funext j
  show Gen.k2_pay1 (F := Ideal)
      (Gen.k2_pay4 (F := Ideal) (Gen.iblk2 V c 1 t) (Gen.iblk2 V c 2 t) (Gen.iblk2 V c 3 t) (Gen.iblk2 V c 0 t) (Gen.iblk2 V c 4 t))
      (Gen.k2_pay5 (F := Ideal) (Gen.iblk2 V c 1 t) (Gen.iblk2 V c 2 t) (Gen.iblk2 V c 3 t) (Gen.iblk2 V c 0 t) (Gen.iblk2 V c 4 t)) j
    = Cert.Gcn.combArr (V c main_v52) (V c main_arg0) (V c main_arg6) (V c main_v1) (V c main_v0)
        (((cfg2.win 5).blk t).view.emb j)
  refine comb_point2 (V c main_v52) (V c main_arg0) (V c main_arg6) (V c main_v1) (V c main_v0) _ _ _ _ _ j _
    (fun k => ?_) (fun k => ?_) (funext fun y => ?_) (funext fun y => ?_) (funext fun y => ?_) ?_
  · -- the aggregate's block and the result's block start at the same row
    show V c main_v52 (((cfg2.win 0).blk t).view.emb (ix2 ⟨(j 0).val, idx2_lt0 j⟩ k)) = V c main_v52 _
    refine congrArg (V c main_v52) (funext fun a => Fin.ext ?_)
    match a with
    | ⟨0, _⟩ =>
      show win2_0.index t (0 : Fin 2) * 5000 + 1 * (j 0).val = win2_5.index t (0 : Fin 2) * 5000 + 1 * (j 0).val
      rw [g0, o0]
    | ⟨1, _⟩ =>
      show win2_0.index t (1 : Fin 2) * 128 + 1 * k.val = k.val
      rw [g1]; omega
  · -- so does the features' block
    show V c main_arg0 (((cfg2.win 1).blk t).view.emb (ix2 ⟨(j 0).val, idx2_lt0 j⟩ k)) = V c main_arg0 _
    refine congrArg (V c main_arg0) (funext fun a => Fin.ext ?_)
    match a with
    | ⟨0, _⟩ =>
      show win2_1.index t (0 : Fin 2) * 5000 + 1 * (j 0).val = win2_5.index t (0 : Fin 2) * 5000 + 1 * (j 0).val
      rw [x0, o0]
    | ⟨1, _⟩ =>
      show win2_1.index t (1 : Fin 2) * 128 + 1 * k.val = k.val
      rw [x1]; omega
  · -- the weights' block is the whole array
    show V c main_arg6 (((cfg2.win 2).blk t).view.emb y) = V c main_arg6 y
    refine congrArg (V c main_arg6) (funext fun a => Fin.ext ?_)
    match a with
    | ⟨0, _⟩ =>
      show win2_2.index t (0 : Fin 2) * 128 + 1 * (y 0).val = (y 0).val
      rw [w0]; omega
    | ⟨1, _⟩ =>
      show win2_2.index t (1 : Fin 2) * 128 + 1 * (y 1).val = (y 1).val
      rw [w1]; omega
  · -- the first bias row's block is the whole array
    show V c main_v1 (((cfg2.win 3).blk t).view.emb y) = V c main_v1 y
    refine congrArg (V c main_v1) (funext fun a => Fin.ext ?_)
    match a with
    | ⟨0, _⟩ =>
      show win2_3.index t (0 : Fin 2) * 1 + 1 * (y 0).val = (y 0).val
      rw [c0]; omega
    | ⟨1, _⟩ =>
      show win2_3.index t (1 : Fin 2) * 128 + 1 * (y 1).val = (y 1).val
      rw [c1]; omega
  · -- the second bias row's block is the whole array
    show V c main_v0 (((cfg2.win 4).blk t).view.emb y) = V c main_v0 y
    refine congrArg (V c main_v0) (funext fun a => Fin.ext ?_)
    match a with
    | ⟨0, _⟩ =>
      show win2_4.index t (0 : Fin 2) * 1 + 1 * (y 0).val = (y 0).val
      rw [b0]; omega
    | ⟨1, _⟩ =>
      show win2_4.index t (1 : Fin 2) * 128 + 1 * (y 1).val = (y 1).val
      rw [b1]; omega
  · show win2_5.index t (1 : Fin 2) * 128 + 1 * (j 1).val = (j 1).val
    rw [o1]; omega

/-- An index of the result array is in point t's block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v54).slice (win2_5.rect t)).set ↔ _
  rw [View.set_slice_whole, Rect.mem_set_unit]
  exact Iff.rfl

/-- Every index of the result array is in some point's block: row r is in the block of point r / 5000. -/
theorem cover2 (i : S100000x128.Idx) :
    ∃ t : Fin cfg2.N, (cfg2.win 5).flush t = true ∧ i ∈ ((cfg2.win 5).blk t).view.set := by
  have hN : cfg2.N = 20 := Gen.N_2
  have hi0 : (i 0).val < 100000 := idx2_lt0 i
  have hi1 : (i 1).val < 128 := idx2_lt1 i
  have ht : (i 0).val / 5000 < cfg2.N := by rw [hN]; omega
  obtain ⟨g0, g1, x0, x1, w0, w1, c0, c1, b0, b1, o0, o1⟩ := block_index2 ⟨(i 0).val / 5000, ht⟩
  refine ⟨⟨(i 0).val / 5000, ht⟩, Gen.flush2_5 _, ?_⟩
  rw [mem_block2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [o1]
    omega

/-- The result array after the region: the rows of main_arg0 updated with the rows of main_v52, row by row. -/
theorem comb2 (c : Dev nD) :
    (Gen.dat2 V c).arrAt 5 cfg2.N
      = Cert.Gcn.combArr (V c main_v52) (V c main_arg0) (V c main_arg6) (V c main_v1) (V c main_v0) :=
  (Gen.dat2 V c).arrAt_eq_of_cover 5 _ (fun t _ => written2 V c t) cover2

/-! ## Region 3: the update of the rows of main_arg1 with the aggregate main_v53 -/

/-- The block indices over the 20 grid points: the aggregate, the features and the result sit at block (t, 0), the
    weights and the two bias rows at block (0, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- One entry of the body's result, when row (j 0) of the blocks v14 and v0 is row (i 0) of the arrays G and X and
    the other three blocks are the whole of W, C and B: it is entry (i 0, j 1) of the row-by-row update of X with G. -/
theorem comb_point3 (G X : S100000x128.Idx → EReal) (W : S128x128.Idx → EReal) (C B : S1x128.Idx → EReal)
    (v0 : FVec Ideal S5000x128 .f32) (v2 : FVec Ideal S128x128 .f32) (v5 : FVec Ideal S1x128 .f32)
    (v14 : FVec Ideal S5000x128 .f32) (v17 : FVec Ideal S1x128 .f32) (j : S5000x128.Idx) (i : S100000x128.Idx)
    (hg : ∀ k : Fin 128, v14 (ix2 ⟨(j 0).val, idx2_lt0 j⟩ k) = G (ix2 ⟨(i 0).val, idx2_lt0 i⟩ k))
    (hx : ∀ k : Fin 128, v0 (ix2 ⟨(j 0).val, idx2_lt0 j⟩ k) = X (ix2 ⟨(i 0).val, idx2_lt0 i⟩ k))
    (hw : v2 = W) (hc : v5 = C) (hb : v17 = B) (hq : (i 1).val = (j 1).val) :
    Gen.k3_pay1 (F := Ideal) (Gen.k3_pay4 (F := Ideal) v0 v2 v5 v14 v17) (Gen.k3_pay5 (F := Ideal) v0 v2 v5 v14 v17) j
      = Cert.Gcn.combArr G X W C B i := by
  subst hw hc hb
  refine (congrArg (Gen.k3_pay1 (F := Ideal) (Gen.k3_pay4 (F := Ideal) v0 v2 v5 v14 v17)
    (Gen.k3_pay5 (F := Ideal) v0 v2 v5 v14 v17)) (eq_ix2 j)).trans ?_
  refine (congrFun (Payload.comb_row3 v0 v2 v5 v14 v17 ⟨(j 0).val, idx2_lt0 j⟩) ⟨(j 1).val, idx2_lt1 j⟩).trans ?_
  show Cert.Gcn.combK (row v14 ⟨(j 0).val, idx2_lt0 j⟩) (row v0 ⟨(j 0).val, idx2_lt0 j⟩) v2
      (fun q => v5 (ix2 (0 : Fin 1) q)) (fun q => v17 (ix2 (0 : Fin 1) q)) ⟨(j 1).val, idx2_lt1 j⟩
    = Cert.Gcn.combK (row G ⟨(i 0).val, idx2_lt0 i⟩) (row X ⟨(i 0).val, idx2_lt0 i⟩) v2
      (fun q => v5 (ix2 (0 : Fin 1) q)) (fun q => v17 (ix2 (0 : Fin 1) q)) ⟨(i 1).val, idx2_lt1 i⟩
  rw [show (⟨(i 1).val, idx2_lt1 i⟩ : Fin 128) = ⟨(j 1).val, idx2_lt1 j⟩ from Fin.ext hq,
    show row G ⟨(i 0).val, idx2_lt0 i⟩ = row v14 ⟨(j 0).val, idx2_lt0 j⟩ from funext fun k => (hg k).symm,
    show row X ⟨(i 0).val, idx2_lt0 i⟩ = row v0 ⟨(j 0).val, idx2_lt0 j⟩ from funext fun k => (hx k).symm]

/-- What point t writes back is block t of the row-by-row update of the arrays as the region finds them: row p of the
    block is the update of row 5000 t + p of main_arg1 with row 5000 t + p of main_v53. -/
theorem written3 (c : Dev nD) (t : Fin cfg3.N) :
    (Gen.dat3 V c).flushed 5 t
      = ((cfg3.win 5).blk t).view.read (Elt Ideal)
          (Cert.Gcn.combArr (V c main_v53) (V c main_arg1) (V c main_arg6) (V c main_v1) (V c main_v0)) := by
  show (cfg3.win 5).cut (grid3.coords t) ((Gen.dat3 V c).after 5 t) = _
  rw [Gen.after3_5]
  unfold Gen.out3_5
  rw [View.canon_unit_zero origin_off]
  simp only [View.ld_unit_zero (S := S5000x128) origin_off, View.ld_unit_zero (S := S128x128) origin_off,
    View.ld_unit_zero (S := S1x128) origin_off]
  obtain ⟨g0, g1, x0, x1, w0, w1, c0, c1, b0, b1, o0, o1⟩ := block_index3 t
  funext j
  show Gen.k3_pay1 (F := Ideal)
      (Gen.k3_pay4 (F := Ideal) (Gen.iblk3 V c 1 t) (Gen.iblk3 V c 2 t) (Gen.iblk3 V c 3 t) (Gen.iblk3 V c 0 t) (Gen.iblk3 V c 4 t))
      (Gen.k3_pay5 (F := Ideal) (Gen.iblk3 V c 1 t) (Gen.iblk3 V c 2 t) (Gen.iblk3 V c 3 t) (Gen.iblk3 V c 0 t) (Gen.iblk3 V c 4 t)) j
    = Cert.Gcn.combArr (V c main_v53) (V c main_arg1) (V c main_arg6) (V c main_v1) (V c main_v0)
        (((cfg3.win 5).blk t).view.emb j)
  refine comb_point3 (V c main_v53) (V c main_arg1) (V c main_arg6) (V c main_v1) (V c main_v0) _ _ _ _ _ j _
    (fun k => ?_) (fun k => ?_) (funext fun y => ?_) (funext fun y => ?_) (funext fun y => ?_) ?_
  · -- the aggregate's block and the result's block start at the same row
    show V c main_v53 (((cfg3.win 0).blk t).view.emb (ix2 ⟨(j 0).val, idx2_lt0 j⟩ k)) = V c main_v53 _
    refine congrArg (V c main_v53) (funext fun a => Fin.ext ?_)
    match a with
    | ⟨0, _⟩ =>
      show win3_0.index t (0 : Fin 2) * 5000 + 1 * (j 0).val = win3_5.index t (0 : Fin 2) * 5000 + 1 * (j 0).val
      rw [g0, o0]
    | ⟨1, _⟩ =>
      show win3_0.index t (1 : Fin 2) * 128 + 1 * k.val = k.val
      rw [g1]; omega
  · -- so does the features' block
    show V c main_arg1 (((cfg3.win 1).blk t).view.emb (ix2 ⟨(j 0).val, idx2_lt0 j⟩ k)) = V c main_arg1 _
    refine congrArg (V c main_arg1) (funext fun a => Fin.ext ?_)
    match a with
    | ⟨0, _⟩ =>
      show win3_1.index t (0 : Fin 2) * 5000 + 1 * (j 0).val = win3_5.index t (0 : Fin 2) * 5000 + 1 * (j 0).val
      rw [x0, o0]
    | ⟨1, _⟩ =>
      show win3_1.index t (1 : Fin 2) * 128 + 1 * k.val = k.val
      rw [x1]; omega
  · -- the weights' block is the whole array
    show V c main_arg6 (((cfg3.win 2).blk t).view.emb y) = V c main_arg6 y
    refine congrArg (V c main_arg6) (funext fun a => Fin.ext ?_)
    match a with
    | ⟨0, _⟩ =>
      show win3_2.index t (0 : Fin 2) * 128 + 1 * (y 0).val = (y 0).val
      rw [w0]; omega
    | ⟨1, _⟩ =>
      show win3_2.index t (1 : Fin 2) * 128 + 1 * (y 1).val = (y 1).val
      rw [w1]; omega
  · -- the first bias row's block is the whole array
    show V c main_v1 (((cfg3.win 3).blk t).view.emb y) = V c main_v1 y
    refine congrArg (V c main_v1) (funext fun a => Fin.ext ?_)
    match a with
    | ⟨0, _⟩ =>
      show win3_3.index t (0 : Fin 2) * 1 + 1 * (y 0).val = (y 0).val
      rw [c0]; omega
    | ⟨1, _⟩ =>
      show win3_3.index t (1 : Fin 2) * 128 + 1 * (y 1).val = (y 1).val
      rw [c1]; omega
  · -- the second bias row's block is the whole array
    show V c main_v0 (((cfg3.win 4).blk t).view.emb y) = V c main_v0 y
    refine congrArg (V c main_v0) (funext fun a => Fin.ext ?_)
    match a with
    | ⟨0, _⟩ =>
      show win3_4.index t (0 : Fin 2) * 1 + 1 * (y 0).val = (y 0).val
      rw [b0]; omega
    | ⟨1, _⟩ =>
      show win3_4.index t (1 : Fin 2) * 128 + 1 * (y 1).val = (y 1).val
      rw [b1]; omega
  · show win3_5.index t (1 : Fin 2) * 128 + 1 * (j 1).val = (j 1).val
    rw [o1]; omega

/-- An index of the result array is in point t's block iff each coordinate is in the block's range on its axis. -/
theorem mem_block3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v55).slice (win3_5.rect t)).set ↔ _
  rw [View.set_slice_whole, Rect.mem_set_unit]
  exact Iff.rfl

/-- Every index of the result array is in some point's block: row r is in the block of point r / 5000. -/
theorem cover3 (i : S100000x128.Idx) :
    ∃ t : Fin cfg3.N, (cfg3.win 5).flush t = true ∧ i ∈ ((cfg3.win 5).blk t).view.set := by
  have hN : cfg3.N = 20 := Gen.N_3
  have hi0 : (i 0).val < 100000 := idx2_lt0 i
  have hi1 : (i 1).val < 128 := idx2_lt1 i
  have ht : (i 0).val / 5000 < cfg3.N := by rw [hN]; omega
  obtain ⟨g0, g1, x0, x1, w0, w1, c0, c1, b0, b1, o0, o1⟩ := block_index3 ⟨(i 0).val / 5000, ht⟩
  refine ⟨⟨(i 0).val / 5000, ht⟩, Gen.flush3_5 _, ?_⟩
  rw [mem_block3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [o1]
    omega

/-- The result array after the region: the rows of main_arg1 updated with the rows of main_v53, row by row. -/
theorem comb3 (c : Dev nD) :
    (Gen.dat3 V c).arrAt 5 cfg3.N
      = Cert.Gcn.combArr (V c main_v53) (V c main_arg1) (V c main_arg6) (V c main_v1) (V c main_v0) :=
  (Gen.dat3 V c).arrAt_eq_of_cover 5 _ (fun t _ => written3 V c t) cover3

end Cert.KernelIdeal.Regions

end
-- ==== Proof.RefTerms.lean ====
/-
  The host-side aggregation of the graph convolution, written as pure functions of the argument arrays.

  Every edge e has two ends (ends0 e, ends1 e) and a weight; after the 600000 given edges come 200000 self loops
  (node i to node i, weight 1). The degree of a node is the sum of the weights of the edges whose second end it
  is; dinv is its inverse square root where the degree is positive and 0 elsewhere; an edge's coefficient is
  dinv(first end) · weight · dinv(second end); and the aggregate adds, into the row of each edge's second end,
  the coefficient times the projected feature row of its first end.
  After it: the bias rows, the dense branch with its leaky rectifier, the row normalisation and the last leaky rectifier.
  Each definition is the composition of the program's own operations, in the program's order.
-/
import proofs.«131488_j63857573757446_2_alg».proof.ReferenceIdeal
import proofs.«131488_j63857573757446_2_alg».proof.Proof.Gen.ReferenceIdeal
import Idealize.ShloMosaic.PureOps.Ideal

noncomputable section

namespace Cert.ReferenceIdeal.Terms

open Idealize.ShloMosaic Cert.ReferenceIdeal Cert.ReferenceIdeal.Facts₀

/-- The first (k = 0) or second (k = 1) end of every edge: the given ends, then every node's own index. -/
def ends0 (a2 : IVec S2x600000 32) : IVec S800000 32 :=
  concatenate S800000 0 [⟨S600000, shapeCast S600000 (extractStridedSlice S1x600000 ![0, 0] a2 slices_S2x600000_S1x600000_0_0) shapeCasts_S1x600000_S600000⟩, ⟨S200000, iotaInDim S200000 32 0⟩] concatenates_S600000_S200000_S800000_d0

def ends1 (a2 : IVec S2x600000 32) : IVec S800000 32 :=
  concatenate S800000 0 [⟨S600000, shapeCast S600000 (extractStridedSlice S1x600000 ![1, 0] a2 slices_S2x600000_S1x600000_1_0) shapeCasts_S1x600000_S600000⟩, ⟨S200000, iotaInDim S200000 32 0⟩] concatenates_S600000_S200000_S800000_d0

/-- The edge weights: the given ones, then 1 for every self loop. -/
def wts (a3 : FVec Ideal S600000 .f32) : FVec Ideal S800000 .f32 :=
  concatenate S800000 0 [⟨S600000, a3⟩, ⟨S200000, broadcastInDim S200000 ![] bcast_S_S200000 (constant S_ .f32 0x3F800000#32)⟩] concatenates_S600000_S200000_S800000_d0

/-- A list of indices as a one-column table. -/
def col1 (i : IVec S800000 32) : IVec S800000x1 32 := broadcastInDim S800000x1 ![0] bcast_S800000_S800000x1_0 i

/-- A negative index counted from the end: i + 200000 where i < 0, else i. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 200000#32))) i

/-- The degree of every node: the weights summed into the second ends. -/
def deg (a2 : IVec S2x600000 32) (a3 : FVec Ideal S600000 .f32) : FVec Ideal S200000 .f32 :=
  Host.scatterAdd scatter_S200000_S800000x1_S800000_n_0_0_1
    (broadcastInDim S200000 ![] bcast_S_S200000 (constant S_ .f32 0x00000000#32)) (col1 (ends1 a2)) (wts a3)

/-- The inverse square root of the degree where it is positive, 0 elsewhere. -/
def dinv (a2 : IVec S2x600000 32) (a3 : FVec Ideal S600000 .f32) : FVec Ideal S200000 .f32 :=
  select (cmpf .ogt (deg a2 a3) (broadcastInDim S200000 ![] bcast_S_S200000 (constant S_ .f32 0x00000000#32)))
    (Host.rsqrt (deg a2 a3)) (broadcastInDim S200000 ![] bcast_S_S200000 (constant S_ .f32 0x00000000#32))

/-- An edge's coefficient: dinv at its first end, times its weight, times dinv at its second end. -/
def coef (a2 : IVec S2x600000 32) (a3 : FVec Ideal S600000 .f32) : FVec Ideal S800000 .f32 :=
  mulf (mulf (Host.gather gather_S200000_S800000x1_S800000_n_0_n_n_0_1_1 (dinv a2 a3) (col1 (wrap (ends0 a2)))) (wts a3))
    (Host.gather gather_S200000_S800000x1_S800000_n_0_n_n_0_1_1 (dinv a2 a3) (col1 (wrap (ends1 a2))))

/-- The coefficients spread over the 128 feature columns. -/
def coefRows (a2 : IVec S2x600000 32) (a3 : FVec Ideal S600000 .f32) : FVec Ideal S800000x128 .f32 :=
  broadcastInDim S800000x128 ![0, 1] bcast_S800000x1_S800000x128_0_1 (broadcastInDim S800000x1 ![0] bcast_S800000_S800000x1_0 (coef a2 a3))

/-- The aggregate as a function of the projected features h: each edge adds coefficient · (row of h at its first
    end) into the row of its second end (a negative second end counted from the end). -/
def agg (h : FVec Ideal S200000x128 .f32) (a2 : IVec S2x600000 32) (a3 : FVec Ideal S600000 .f32) : FVec Ideal S200000x128 .f32 :=
  Host.scatterAdd scatter_S200000x128_S800000x1_S800000x128_1_0_0_1
    (broadcastInDim S200000x128 ![] bcast_S_S200000x128 (constant S_ .f32 0x00000000#32)) (col1 (wrap (ends1 a2)))
    (mulf (coefRows a2 a3)
      (Host.gather gather_S200000x128_S800000x1_S800000x128_1_0_n_n_0_1_1128 h (col1 (wrap (ends0 a2)))))

/-- The two blocks of node features, one above the other. -/
def stack (a0 a1 : FVec Ideal S100000x128 .f32) : FVec Ideal S200000x128 .f32 :=
  concatenate S200000x128 0 [⟨S100000x128, a0⟩, ⟨S100000x128, a1⟩] concatenates_S100000x128_S100000x128_S200000x128_d0

/-- The leaky rectifier: x where x ≥ 0, slope · x elsewhere. -/
def leaky (x : FVec Ideal S200000x128 .f32) : FVec Ideal S200000x128 .f32 :=
  select (cmpf .oge x (broadcastInDim S200000x128 ![] bcast_S_S200000x128 (constant S_ .f32 0x00000000#32))) x
    (mulf (broadcastInDim S200000x128 ![] bcast_S_S200000x128 (constant S_ .f32 0x3C23D70A#32)) x)

/-- A bias of 128 numbers as a row, repeated on every node. -/
def biasRows (b : FVec Ideal S128 .f32) : FVec Ideal S200000x128 .f32 :=
  broadcastInDim S200000x128 ![0, 1] bcast_S1x128_S200000x128_0_1 (broadcastInDim S1x128 ![1] bcast_S128_S1x128_1 b)

/-- What is normalised: (aggregate + its bias) + leaky (x · W + its bias). -/
def pre (g x : FVec Ideal S200000x128 .f32) (a5 : FVec Ideal S128 .f32) (a6 : FVec Ideal S128x128 .f32) (a7 : FVec Ideal S128 .f32) :
    FVec Ideal S200000x128 .f32 :=
  addf (addf g (biasRows a5))
    (leaky (addf (Host.dotGeneral dot_S200000x128_S128x128_S200000x128_1_0_0_1_n_n none x a6) (biasRows a7)))

/-- A number per node as a one-column table, and that column repeated over the 128 feature columns. -/
def colOf (v : FVec Ideal S200000 .f32) : FVec Ideal S200000x1 .f32 := broadcastInDim S200000x1 ![0] bcast_S200000_S200000x1_0 v
def spread (v : FVec Ideal S200000x1 .f32) : FVec Ideal S200000x128 .f32 := broadcastInDim S200000x128 ![0, 1] bcast_S200000x1_S200000x128_0_1 v

/-- The sum of every row. -/
def rowSums (y : FVec Ideal S200000x128 .f32) : FVec Ideal S200000 .f32 :=
  Host.reduceAdd y (constant S_ .f32 0x00000000#32) reducesTo_S200000x128_S200000_d1 h_S_

/-- The mean of every row: its sum over 128. -/
def mean (y : FVec Ideal S200000x128 .f32) : FVec Ideal S200000x1 .f32 :=
  Host.divf (colOf (rowSums y)) (broadcastInDim S200000x1 ![] bcast_S_S200000x1 (constant S_ .f32 0x43000000#32))

/-- Every entry minus its row's mean. -/
def dev (y : FVec Ideal S200000x128 .f32) : FVec Ideal S200000x128 .f32 := subf y (spread (mean y))

/-- The variance of every row: the mean of the squared deviations. -/
def var (y : FVec Ideal S200000x128 .f32) : FVec Ideal S200000x1 .f32 :=
  Host.divf (colOf (rowSums (mulf (dev y) (dev y)))) (broadcastInDim S200000x1 ![] bcast_S_S200000x1 (constant S_ .f32 0x43000000#32))

/-- Row normalisation: deviation over the square root of (variance + ε). -/
def norm (y : FVec Ideal S200000x128 .f32) : FVec Ideal S200000x128 .f32 :=
  Host.divf (dev y)
    (spread (Host.sqrt (addf (var y) (broadcastInDim S200000x1 ![] bcast_S_S200000x1 (constant S_ .f32 0x358637BD#32)))))

/-- Everything after the aggregate, as a function of the aggregate g and the stacked features x. -/
def tail (g x : FVec Ideal S200000x128 .f32) (a5 : FVec Ideal S128 .f32) (a6 : FVec Ideal S128x128 .f32) (a7 : FVec Ideal S128 .f32) :
    FVec Ideal S200000x128 .f32 :=
  leaky (norm (pre g x a5 a6 a7))

/-- The whole result before it is cut in two. -/
def whole (a0 a1 : FVec Ideal S100000x128 .f32) (a2 : IVec S2x600000 32) (a3 : FVec Ideal S600000 .f32) (a4 : FVec Ideal S128x128 .f32)
    (a5 : FVec Ideal S128 .f32) (a6 : FVec Ideal S128x128 .f32) (a7 : FVec Ideal S128 .f32) : FVec Ideal S200000x128 .f32 :=
  tail (agg (Host.dotGeneral dot_S200000x128_S128x128_S200000x128_1_0_0_1_n_n none (stack a0 a1) a4) a2 a3) (stack a0 a1) a5 a6 a7

/-- The first 100000 rows of the result, and the last 100000. -/
def out0 (a0 a1 : FVec Ideal S100000x128 .f32) (a2 : IVec S2x600000 32) (a3 : FVec Ideal S600000 .f32) (a4 : FVec Ideal S128x128 .f32)
    (a5 : FVec Ideal S128 .f32) (a6 : FVec Ideal S128x128 .f32) (a7 : FVec Ideal S128 .f32) : FVec Ideal S100000x128 .f32 :=
  extractStridedSlice S100000x128 ![0, 0] (whole a0 a1 a2 a3 a4 a5 a6 a7) slices_S200000x128_S100000x128_0_0

def out1 (a0 a1 : FVec Ideal S100000x128 .f32) (a2 : IVec S2x600000 32) (a3 : FVec Ideal S600000 .f32) (a4 : FVec Ideal S128x128 .f32)
    (a5 : FVec Ideal S128 .f32) (a6 : FVec Ideal S128x128 .f32) (a7 : FVec Ideal S128 .f32) : FVec Ideal S100000x128 .f32 :=
  extractStridedSlice S100000x128 ![100000, 0] (whole a0 a1 a2 a3 a4 a5 a6 a7) slices_S200000x128_S100000x128_100000_0

end Cert.ReferenceIdeal.Terms

end
-- ==== Proof.RefTail.lean ====
/-
  Everything the reference computes after the aggregate, read one row at a time.

  Row i of the result depends on row i of the aggregate g and row i of the stacked features x only: the row
  z_j = (g(i, j) + b_j) + leaky (Σ_k x(i, k) · w(k, j) + c_j), its mean and deviations, the variance, the scale
  √(variance + ε), and leaky (deviation / scale). The sums start from the word of 0, which is 0.
-/
import proofs.«131488_j63857573757446_2_alg».proof.Proof.RefTerms
import proofs.«131488_j63857573757446_2_alg».proof.Proof.Spec
import proofs.«131488_j63857573757446_2_alg».proof.Proof.LibRowOps
import proofs.«131488_j63857573757446_2_alg».proof.Proof.LibRowSpread
import Idealize.ShloMosaic.Lib.Pipeline.Value
import Idealize.ShloMosaic.Lib.ValueLayout
import Idealize.ShloMosaic.PureOps.Ideal.Laws

noncomputable section

open scoped BigOperators

namespace Cert.ReferenceIdeal.Tail

open Idealize.ShloMosaic Idealize.ShloMosaic.ValueIdx Idealize.ShloMosaic.DenseRows Cert.ReferenceIdeal Cert.ReferenceIdeal.Terms

/-- The row that is normalised, from row i of the aggregate and of the features. -/
def zrow (g x : FVec Ideal S200000x128 .f32) (a5 : FVec Ideal S128 .f32) (a6 : FVec Ideal S128x128 .f32) (a7 : FVec Ideal S128 .f32)
    (i : Fin 200000) : Fin 128 → EReal :=
  fun j => (g (ix2 i j) + a5 (ix1 j)) + Gcn.dense (row x i) a6 (fun j => a7 (ix1 j)) j

/-- A bias repeated on every node reads its entry j at (i, j). -/
theorem biasRows_apply (b : FVec Ideal S128 .f32) (i : Fin 200000) (j : Fin 128) : biasRows b (ix2 i j) = b (ix1 j) := by
  unfold biasRows
  rw [rowsInDim_apply, rowInDim_apply]

/-- The leaky rectifier entry by entry. -/
theorem leaky_apply (y : FVec Ideal S200000x128 .f32) (k : S200000x128.Idx) : leaky y k = Gcn.leaky (y k) := by
  unfold leaky
  simp only [select_apply, cmpf_apply, mulf_apply, splat_apply, constant_apply]
  rfl

theorem pre_apply (g x : FVec Ideal S200000x128 .f32) (a5 : FVec Ideal S128 .f32) (a6 : FVec Ideal S128x128 .f32) (a7 : FVec Ideal S128 .f32)
    (i : Fin 200000) (j : Fin 128) : pre g x a5 a6 a7 (ix2 i j) = zrow g x a5 a6 a7 i j := by
  unfold pre
  rw [addf_apply, addf_apply, leaky_apply, addf_apply, biasRows_apply, biasRows_apply]
  have hd := congrFun (row_dotGeneral dot_S200000x128_S128x128_S200000x128_1_0_0_1_n_n rfl none x a6 i) j
  exact congrArg (fun s => (g (ix2 i j) + a5 (ix1 j)) + Gcn.leaky (s + a7 (ix1 j))) hd

/-- A row sum by the reduce from the word of 0. -/
theorem rowSums_apply (y : FVec Ideal S200000x128 .f32) (i : Fin 200000) : rowSums y (ix1 i) = ∑ j : Fin 128, y (ix2 i j) := by
  unfold rowSums
  rw [RowOps.rowSum_host y _ _ (by decide) _ i, constant_apply, Ideal.ofBits_zero_f32, zero_add]

theorem mean_apply (y : FVec Ideal S200000x128 .f32) (i : Fin 200000) :
    mean y (ix2 i (0 : Fin 1)) = Gcn.mean (fun j => y (ix2 i j)) := by
  unfold mean colOf
  show Ideal.div _ _ = _
  rw [RowOps.colInDim_apply, splat_apply, constant_apply, rowSums_apply]
  rfl

theorem dev_apply (y : FVec Ideal S200000x128 .f32) (i : Fin 200000) (j : Fin 128) :
    dev y (ix2 i j) = Gcn.dev (fun j => y (ix2 i j)) j := by
  unfold dev spread
  rw [subf_apply, RowOps.colInDim2_apply, mean_apply]
  rfl

theorem var_apply (y : FVec Ideal S200000x128 .f32) (i : Fin 200000) :
    var y (ix2 i (0 : Fin 1)) = Gcn.var (fun j => y (ix2 i j)) := by
  unfold var colOf
  show Ideal.div _ _ = _
  rw [RowOps.colInDim_apply, splat_apply, constant_apply, rowSums_apply]
  refine congrArg (fun s => Ideal.div s _) (Finset.sum_congr rfl fun q _ => ?_)
  rw [mulf_apply, dev_apply]

theorem norm_apply (y : FVec Ideal S200000x128 .f32) (i : Fin 200000) (j : Fin 128) :
    Terms.norm y (ix2 i j) = Ideal.div (Gcn.dev (fun j => y (ix2 i j)) j) (Gcn.scale (fun j => y (ix2 i j))) := by
  unfold Terms.norm spread
  show Ideal.div _ _ = _
  rw [dev_apply, RowOps.colInDim2_apply]
  show Ideal.div _ (Ideal.sqrt _) = _
  rw [addf_apply, var_apply, splat_apply, constant_apply]
  rfl

/-- Row i of everything after the aggregate is the node update of row i of the aggregate and of the features. -/
theorem tail_row (g x : FVec Ideal S200000x128 .f32) (a5 : FVec Ideal S128 .f32) (a6 : FVec Ideal S128x128 .f32) (a7 : FVec Ideal S128 .f32)
    (i : Fin 200000) :
    row (tail g x a5 a6 a7) i = Gcn.combR (row g i) (row x i) a6 (fun j => a7 (ix1 j)) (fun j => a5 (ix1 j)) := by
  funext j
  show tail g x a5 a6 a7 (ix2 i j) = _
  unfold tail
  rw [leaky_apply, norm_apply]
  have hz : (fun q => pre g x a5 a6 a7 (ix2 i q)) = zrow g x a5 a6 a7 i := funext fun q => pre_apply g x a5 a6 a7 i q
  rw [hz]
  rfl

end Cert.ReferenceIdeal.Tail

end
-- ==== Proof.Layout.lean ====
/-
  Reading stacked and cut arrays at an index, and the edge lists' second ends as signed numbers.

  Two blocks of 100000 rows stacked: row p of the stack is row p of the first block, row 100000 + p is row p of the
  second. The first (last) 100000 rows cut out of 200000: row p of the cut is row p (row 100000 + p) of the whole.
  A list of 600000 given indices followed by 0, 1, …, 199999: if every given index is ≥ 0 as a signed word, so is
  every entry of the list (the appended ones are below 2^31); and an index that is ≥ 0 is left alone by the rule
  "count a negative index from the end".
-/
import Idealize.ShloMosaic.Lib.Pipeline.Value
import Idealize.ShloMosaic.Lib.ValueIdx
import Idealize.ShloMosaic.Lib.ValueLayout
import Idealize.ShloMosaic.Lib.IdealHost

noncomputable section

namespace Cert.Gcn.Layout

open Idealize.ShloMosaic Idealize.ShloMosaic.ValueIdx

abbrev SN : Shape := ⟨2, ![200000, 128]⟩
abbrev SH : Shape := ⟨2, ![100000, 128]⟩
abbrev S8 : Shape := ⟨1, ![800000]⟩
abbrev S6 : Shape := ⟨1, ![600000]⟩
abbrev S2 : Shape := ⟨1, ![200000]⟩

variable {α : Type}

/-- Row p of the lower half, as a row of the whole. -/
abbrev lo (p : Fin 100000) : Fin 200000 := ⟨p.val, Nat.lt_trans p.isLt (by norm_num)⟩
/-- Row p of the upper half, as a row of the whole. -/
abbrev hi (p : Fin 100000) : Fin 200000 := ⟨100000 + p.val, by have := p.isLt; omega⟩

theorem stack_lo (a0 a1 : SH.Idx → α) (h : Shape.Concatenates [SH, SH] SN 0) (p : Fin 100000) (q : Fin 128) :
    concatenate SN 0 [⟨SH, a0⟩, ⟨SH, a1⟩] h (ix2 (lo p) q) = a0 (ix2 p q) := by
  refine concatenate_pair_apply_left (0 : Fin 2) a0 a1 h (ix2 (lo p) q) rfl (ix2 p q) fun b => ?_
  match b with
  | ⟨0, _⟩ => rfl
  | ⟨1, _⟩ => rfl

theorem stack_hi (a0 a1 : SH.Idx → α) (h : Shape.Concatenates [SH, SH] SN 0) (p : Fin 100000) (q : Fin 128) :
    concatenate SN 0 [⟨SH, a0⟩, ⟨SH, a1⟩] h (ix2 (hi p) q) = a1 (ix2 p q) := by
  refine concatenate_pair_apply_right (0 : Fin 2) a0 a1 h (ix2 (hi p) q) rfl rfl (ix2 p q) (fun b hb => ?_) ?_
  · match b with
    | ⟨0, _⟩ => exact absurd rfl hb
    | ⟨1, _⟩ => rfl
  · show p.val + 100000 = 100000 + p.val
    omega

theorem slice_lo (y : SN.Idx → α) (h : SN.Slices ![0, 0] SH) (p : Fin 100000) (q : Fin 128) :
    extractStridedSlice SH ![0, 0] y h (ix2 p q) = y (ix2 (lo p) q) := by
  refine extractStridedSlice_apply ![0, 0] y h (ix2 p q) (ix2 (lo p) q) fun a => ?_
  match a with
  | ⟨0, _⟩ => show p.val = 0 + p.val; omega
  | ⟨1, _⟩ => show q.val = 0 + q.val; omega

theorem slice_hi (y : SN.Idx → α) (h : SN.Slices ![100000, 0] SH) (p : Fin 100000) (q : Fin 128) :
    extractStridedSlice SH ![100000, 0] y h (ix2 p q) = y (ix2 (hi p) q) := by
  refine extractStridedSlice_apply ![100000, 0] y h (ix2 p q) (ix2 (hi p) q) fun a => ?_
  match a with
  | ⟨0, _⟩ => rfl
  | ⟨1, _⟩ => show q.val = 0 + q.val; omega

/-- A word that is ≥ 0 as a signed number is not < 0. -/
theorem not_slt_of_sle (x : BitVec 32) (h : (0#32).sle x = true) : x.slt 0#32 = false := by
  simp only [BitVec.sle, BitVec.slt, decide_eq_true_eq, decide_eq_false_iff_not, not_lt] at h ⊢
  exact h

/-- A number below 200000 written as a 32-bit word is ≥ 0 as a signed number. -/
theorem ofNat_not_slt (n : Nat) (hn : n < 200000) : (BitVec.ofNat 32 n).slt 0#32 = false := by
  rw [BitVec.slt_zero_eq_msb, BitVec.msb_eq_false_iff_two_mul_lt, BitVec.toNat_ofNat]
  have h32 : (2 : Nat) ^ 32 = 4294967296 := by rfl
  rw [h32]; omega

/-- The given indices followed by 0 … 199999: every entry is ≥ 0 if every given one is. -/
theorem ends_not_slt (part : S6.Idx → BitVec 32) (h : Shape.Concatenates [S6, S2] S8 0)
    (hp : ∀ e : Fin 600000, (0#32).sle (part (ix1 e)) = true) (e : Fin 800000) :
    (concatenate S8 0 [⟨S6, part⟩, ⟨S2, iotaInDim S2 32 0⟩] h (ix1 e)).slt 0#32 = false := by
  by_cases he : e.val < 600000
  · rw [concatenate_pair_apply_left (0 : Fin 1) part (iotaInDim S2 32 0) h (ix1 e) rfl (ix1 (⟨e.val, he⟩ : Fin 600000))
      (fun b => by match b with | ⟨0, _⟩ => rfl)]
    exact not_slt_of_sle _ (hp _)
  · have he2 : e.val - 600000 < 200000 := by have := e.isLt; omega
    rw [concatenate_pair_apply_right (0 : Fin 1) part (iotaInDim S2 32 0) h (ix1 e) rfl rfl (ix1 (⟨e.val - 600000, he2⟩ : Fin 200000))
      (fun b hb => (hb (Subsingleton.elim (α := Fin 1) _ _)).elim)
      (by show e.val - 600000 + 600000 = e.val; omega)]
    exact ofNat_not_slt _ he2

/-- Counting a negative index from the end leaves a list of indices that are all ≥ 0 as it is. -/
theorem wrap_id (i : S8.Idx → BitVec 32) (z n : S8.Idx → BitVec 32) (hz : ∀ k, z k = 0#32)
    (hi : ∀ e : Fin 800000, (i (ix1 e)).slt 0#32 = false) :
    select (cmpi .slt i z) (addi i n) i = i := by
  funext k
  obtain ⟨e, rfl⟩ : ∃ e : Fin 800000, k = ix1 e := ⟨k 0, eq_ix1 k⟩
  rw [select_apply]
  show Scalar.select (IntOp.cmpi .slt (i (ix1 e)) (z (ix1 e))) _ _ = _
  rw [hz]
  show Scalar.select (BitVec.ofBool ((i (ix1 e)).slt 0#32)) _ _ = _
  rw [hi e]
  exact select_zero _ _

end Cert.Gcn.Layout

end
-- ==== Proof.AggEq.lean ====
/-
  The two programs' aggregates are one function of the projected features.

  Both compute every edge's coefficient the same way and gather the same rows; they differ in two places. One
  passes the gathered rows through a change of float format, which is the identity on the extended reals. The other
  first replaces a negative second end i by i + 200000 before adding into the rows; when every second end is ≥ 0
  that replacement does nothing, and the two scatter-adds have the same indices.
-/
import proofs.«131488_j63857573757446_2_alg».proof.Proof.KTerms
import proofs.«131488_j63857573757446_2_alg».proof.Proof.RefTerms
import proofs.«131488_j63857573757446_2_alg».proof.Proof.Layout
import proofs.«131488_j63857573757446_2_alg».proof.Proof.LibRowSpread

noncomputable section

namespace Cert.Bridge

open Idealize.ShloMosaic Idealize.ShloMosaic.ValueIdx

/-- The given second ends of the 600000 edges: row 1 of the 2 × 600000 table, as a list. -/
def givenEnds (a2 : IVec Cert.ReferenceIdeal.S2x600000 32) : IVec Cert.ReferenceIdeal.S600000 32 :=
  shapeCast Cert.ReferenceIdeal.S600000
    (extractStridedSlice Cert.ReferenceIdeal.S1x600000 ![1, 0] a2 Cert.ReferenceIdeal.Facts₀.slices_S2x600000_S1x600000_1_0)
    Cert.ReferenceIdeal.Facts₀.shapeCasts_S1x600000_S600000

/-- Every given second end is ≥ 0 as a signed word. -/
def EndsNonneg (a2 : IVec Cert.ReferenceIdeal.S2x600000 32) : Prop :=
  ∀ e : Fin 600000, (0#32).sle (givenEnds a2 (ix1 e)) = true

/-- With every second end ≥ 0, counting negative ones from the end changes nothing. -/
theorem wrap_ends1 (a2 : IVec Cert.ReferenceIdeal.S2x600000 32) (hp : EndsNonneg a2) :
    Cert.ReferenceIdeal.Terms.wrap (Cert.ReferenceIdeal.Terms.ends1 a2) = Cert.ReferenceIdeal.Terms.ends1 a2 := by
  unfold Cert.ReferenceIdeal.Terms.wrap
  refine Cert.Gcn.Layout.wrap_id (Cert.ReferenceIdeal.Terms.ends1 a2) _ _ (fun k => ?_) (fun e => ?_)
  · rw [RowSpread.scalarInDim_apply]; rfl
  · unfold Cert.ReferenceIdeal.Terms.ends1
    exact Cert.Gcn.Layout.ends_not_slt _ _ hp e

/-- The aggregate of one program is the aggregate of the other, as functions of the projected features. -/
theorem agg_eq (h : Cert.ReferenceIdeal.S200000x128.Idx → EReal) (a2 : IVec Cert.ReferenceIdeal.S2x600000 32)
    (a3 : Cert.ReferenceIdeal.S600000.Idx → EReal) (hp : EndsNonneg a2) :
    Cert.KernelIdeal.Terms.agg h a2 a3 = Cert.ReferenceIdeal.Terms.agg h a2 a3 := by
  unfold Cert.ReferenceIdeal.Terms.agg
  rw [wrap_ends1 a2 hp]
  rfl

end Cert.Bridge

end
-- ==== Proof.Bridge.lean ====
/-
  The two programs compute the same two halves, as functions of the argument arrays.

  One program projects each half of the nodes separately, stacks the two projections, aggregates over the edges, cuts
  the aggregate in two and updates each half row by row. The other stacks the node features first, projects,
  aggregates, updates all rows and cuts the result in two. Row p of a stack's lower half is row p of the first block
  and row p of its upper half is row p of the second; a product is computed row by row, so the stacked projections
  are the projection of the stack; the aggregates agree when no second end is negative; and the update of a row reads
  that row only, where the two updates agree (commutativity of +, and the scale being nonzero).
-/
import proofs.«131488_j63857573757446_2_alg».proof.Proof.KTerms
import proofs.«131488_j63857573757446_2_alg».proof.Proof.RefTerms
import proofs.«131488_j63857573757446_2_alg».proof.Proof.RefTail
import proofs.«131488_j63857573757446_2_alg».proof.Proof.AggEq
import proofs.«131488_j63857573757446_2_alg».proof.Proof.Spec
import proofs.«131488_j63857573757446_2_alg».proof.Proof.Layout
import proofs.«131488_j63857573757446_2_alg».proof.Proof.LibDenseRows
import proofs.«131488_j63857573757446_2_alg».proof.Proof.LibAffineRow

noncomputable section

open scoped BigOperators

namespace Cert.Bridge

open Idealize.ShloMosaic Idealize.ShloMosaic.ValueIdx Idealize.ShloMosaic.DenseRows
open Cert.ReferenceIdeal Cert.ReferenceIdeal.Terms Cert.Gcn.Layout

theorem row_stack_lo (a0 a1 : FVec Ideal S100000x128 .f32) (p : Fin 100000) : row (stack a0 a1) (lo p) = row a0 p := by
  funext q
  show stack a0 a1 (ix2 (lo p) q) = _
  unfold stack
  exact stack_lo a0 a1 _ p q

theorem row_stack_hi (a0 a1 : FVec Ideal S100000x128 .f32) (p : Fin 100000) : row (stack a0 a1) (hi p) = row a1 p := by
  funext q
  show stack a0 a1 (ix2 (hi p) q) = _
  unfold stack
  exact stack_hi a0 a1 _ p q

/-- A row of the whole is a row of its lower half or of its upper half. -/
theorem lo_or_hi (i : Fin 200000) : (∃ p : Fin 100000, i = lo p) ∨ (∃ p : Fin 100000, i = hi p) := by
  by_cases h : i.val < 100000
  · exact Or.inl ⟨⟨i.val, h⟩, Fin.ext rfl⟩
  · have h2 : i.val - 100000 < 100000 := by have := i.isLt; omega
    exact Or.inr ⟨⟨i.val - 100000, h2⟩, Fin.ext (by show i.val = 100000 + (i.val - 100000); omega)⟩

/-- The two projections stacked are the projection of the stacked features. -/
theorem proj_stack (a0 a1 : FVec Ideal S100000x128 .f32) (a4 : FVec Ideal S128x128 .f32) (hc : Shape.Concatenates [SH, SH] SN 0) :
    concatenate SN 0 [⟨SH, Gcn.projArr a0 a4⟩, ⟨SH, Gcn.projArr a1 a4⟩] hc
      = Host.dotGeneral dot_S200000x128_S128x128_S200000x128_1_0_0_1_n_n none (stack a0 a1) a4 := by
  funext k
  obtain ⟨i, q, rfl⟩ : ∃ (i : Fin 200000) (q : Fin 128), k = ix2 i q := ⟨k 0, k 1, eq_ix2 k⟩
  have hR : Host.dotGeneral dot_S200000x128_S128x128_S200000x128_1_0_0_1_n_n none (stack a0 a1) a4 (ix2 i q)
      = rowDot (row (stack a0 a1) i) a4 q :=
    congrFun (row_dotGeneral dot_S200000x128_S128x128_S200000x128_1_0_0_1_n_n rfl none (stack a0 a1) a4 i) q
  rw [hR]
  rcases lo_or_hi i with ⟨p, rfl⟩ | ⟨p, rfl⟩
  · rw [stack_lo, Gcn.projArr_apply, row_stack_lo]
  · rw [stack_hi, Gcn.projArr_apply, row_stack_hi]

/-- A bias viewed as one row reads its entry j at (0, j). -/
theorem bias_row (b : FVec Ideal S128 .f32) (h1 : S128.ShapeCasts S1x128) :
    (fun j : Fin 128 => shapeCast S1x128 b h1 (ix2 (0 : Fin 1) j)) = fun j => b (ix1 j) :=
  funext fun j => AffineRow.oneRow_apply b h1 j

/-- One row of the reference's whole result. -/
theorem whole_row (a0 a1 : FVec Ideal S100000x128 .f32) (a2 : IVec S2x600000 32) (a3 : FVec Ideal S600000 .f32)
    (a4 : FVec Ideal S128x128 .f32) (a5 : FVec Ideal S128 .f32) (a6 : FVec Ideal S128x128 .f32) (a7 : FVec Ideal S128 .f32)
    (i : Fin 200000) (q : Fin 128) :
    whole a0 a1 a2 a3 a4 a5 a6 a7 (ix2 i q)
      = Gcn.combR (row (agg (Host.dotGeneral dot_S200000x128_S128x128_S200000x128_1_0_0_1_n_n none (stack a0 a1) a4) a2 a3) i)
          (row (stack a0 a1) i) a6 (fun j => a7 (ix1 j)) (fun j => a5 (ix1 j)) q :=
  congrFun (Cert.ReferenceIdeal.Tail.tail_row _ _ a5 a6 a7 i) q

section
variable (a0 a1 : FVec Ideal S100000x128 .f32) (a2 : IVec S2x600000 32) (a3 : FVec Ideal S600000 .f32)
  (a4 : FVec Ideal S128x128 .f32) (a5 : FVec Ideal S128 .f32) (a6 : FVec Ideal S128x128 .f32) (a7 : FVec Ideal S128 .f32)
  (hc : Shape.Concatenates [SH, SH] SN 0) (h1 : S128.ShapeCasts S1x128)

/-- The lower half: the first program's update of the lower half of its aggregate is the first 100000 rows of
    the second program's result. -/
theorem half0 (hp : EndsNonneg a2) (hs : SN.Slices ![0, 0] SH) :
    Gcn.combArr (extractStridedSlice SH ![0, 0]
        (Cert.KernelIdeal.Terms.agg (concatenate SN 0 [⟨SH, Gcn.projArr a0 a4⟩, ⟨SH, Gcn.projArr a1 a4⟩] hc) a2 a3) hs)
      a0 a6 (shapeCast S1x128 a7 h1) (shapeCast S1x128 a5 h1)
      = out0 a0 a1 a2 a3 a4 a5 a6 a7 := by
  funext k
  obtain ⟨p, q, rfl⟩ : ∃ (p : Fin 100000) (q : Fin 128), k = ix2 p q := ⟨k 0, k 1, eq_ix2 k⟩
  unfold out0
  rw [Gcn.combArr_apply, Gcn.comb_eq, slice_lo, whole_row, row_stack_lo, bias_row, bias_row, proj_stack, agg_eq _ a2 a3 hp]
  exact congrArg (fun g => Gcn.combR g (row a0 p) a6 (fun j => a7 (ix1 j)) (fun j => a5 (ix1 j)) q)
    (funext fun j => slice_lo _ hs p j)

/-- The upper half. -/
theorem half1 (hp : EndsNonneg a2) (hs : SN.Slices ![100000, 0] SH) :
    Gcn.combArr (extractStridedSlice SH ![100000, 0]
        (Cert.KernelIdeal.Terms.agg (concatenate SN 0 [⟨SH, Gcn.projArr a0 a4⟩, ⟨SH, Gcn.projArr a1 a4⟩] hc) a2 a3) hs)
      a1 a6 (shapeCast S1x128 a7 h1) (shapeCast S1x128 a5 h1)
      = out1 a0 a1 a2 a3 a4 a5 a6 a7 := by
  funext k
  obtain ⟨p, q, rfl⟩ : ∃ (p : Fin 100000) (q : Fin 128), k = ix2 p q := ⟨k 0, k 1, eq_ix2 k⟩
  unfold out1
  rw [Gcn.combArr_apply, Gcn.comb_eq, slice_hi, whole_row, row_stack_hi, bias_row, bias_row, proj_stack, agg_eq _ a2 a3 hp]
  exact congrArg (fun g => Gcn.combR g (row a1 p) a6 (fun j => a7 (ix1 j)) (fun j => a5 (ix1 j)) q)
    (funext fun j => slice_hi _ hs p j)

end

end Cert.Bridge

end
-- ==== Proof.LibFiniteAll.lean ====
/-
  "Every entry is finite", written as a program, says every entry is a real number.

  A program tests finiteness of a float array x by comparing |x| with +inf entry by entry, and-reducing the
  resulting bits over all axes from the bit 1 into a single bit. On the extended reals |x| = max x (−x), the
  f32 word 0x7F800000 denotes +inf, and max x (−x) < +inf fails exactly at x = +inf and x = −inf (where the
  maximum is +inf). An and-reduction over all axes is 1 only when every bit is 1. So the single bit being 1
  says every entry of x is the image of a real number.
-/
import Idealize.ShloMosaic.PureOps.Ideal
import Idealize.ShloMosaic.Lib.ReduceAll
import Idealize.ShloMosaic.Lib.ValueIdx

noncomputable section

namespace Cert.FiniteAll

open Idealize.ShloMosaic Idealize.ShloMosaic.ValueIdx

/-- The f32 word with all exponent bits set and no fraction bit denotes +inf. -/
theorem ofBits_inf_f32 : Ideal.ofBits .f32 0x7F800000#32 = (⊤ : EReal) := by
  simp [Ideal.ofBits, Ideal.ieee]

/-- An extended real whose absolute value max x (−x) is strictly below +inf is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

/-- A rank-0 shape has one index. -/
instance subsingleton_idx0 : Subsingleton (⟨0, ![]⟩ : Shape).Idx := ⟨fun a b => funext fun d => d.elim0⟩

/-- The finiteness test of a float array of any shape: if the and-reduction over all axes of the bits
    |x| < +inf (the bound a broadcast rank-0 constant, the reduction started from the bit 1) is the bit 1,
    every entry of the array is a real number. -/
theorem all_real_of_test {s : Shape} {axes : List (Fin s.rank)}
    (bc : (⟨0, ![]⟩ : Shape).BroadcastsInDim s (![] : Fin 0 → Fin s.rank))
    (rd : s.ReducesTo axes (⟨0, ![]⟩ : Shape)) (hu : 0 < (⟨0, ![]⟩ : Shape).numel)
    (a : FVec Ideal s .f32)
    (h : Host.reduce IntOp.andi
          (cmpf .olt (Host.absf a)
            (broadcastInDim s ![] bc (constant (F := Ideal) (⟨0, ![]⟩ : Shape) .f32 0x7F800000#32)))
          (constantI (⟨0, ![]⟩ : Shape) 1 1#1) rd hu ix0 = 1#1) :
    ∀ i, ∃ r : ℝ, a i = (r : EReal) := by
  intro i
  exact real_of_abs_lt_inf (a i) (Host.reduce_andi_all _ _ rd hu ix0 h i)

end Cert.FiniteAll

end
-- ==== Proof.PreCols.lean ====
/-
  What the precondition says about the edges' second ends.

  The precondition is a single bit: the conjunction of one bit per test, the last of which compares every given second
  end (row 1 of the edge table) with 0 as signed words and and-reduces the results. The conjunction being 1 makes
  that last bit 1, and an and-reduction is 1 only if every compared entry gave 1: every given second end is ≥ 0.
-/
import proofs.«131488_j63857573757446_2_alg».proof.Pre_finite_inputs
import proofs.«131488_j63857573757446_2_alg».proof.Proof.Gen.Pre_finite_inputs
import proofs.«131488_j63857573757446_2_alg».proof.Proof.AggEq
import proofs.«131488_j63857573757446_2_alg».proof.Proof.LibFiniteAll
import Idealize.ShloMosaic.Lib.ReduceAll
import Idealize.ShloMosaic.Lib.Affine

noncomputable section

namespace Cert.Bridge

open Idealize.ShloMosaic Idealize.ShloMosaic.ValueIdx Cert.Pre_finite_inputs

theorem endsNonneg_of_pre (a0 a1 : FVec Ideal S100000x128 .f32) (a2 : IVec S2x600000 32) (a3 : FVec Ideal S600000 .f32)
    (a4 : FVec Ideal S128x128 .f32) (a5 : FVec Ideal S128 .f32) (a6 : FVec Ideal S128x128 .f32) (a7 : FVec Ideal S128 .f32)
    (h : Cert.Pre_finite_inputs.fn (F := Ideal) a0 a1 a2 a3 a4 a5 a6 a7 = fun _ => 1#1) : EndsNonneg a2 := by
  have h0 : Cert.Pre_finite_inputs.fn (F := Ideal) a0 a1 a2 a3 a4 a5 a6 a7 ix0 = 1#1 := congrFun h ix0
  unfold Cert.Pre_finite_inputs.fn Cert.Pre_finite_inputs.fn_part1 Cert.Pre_finite_inputs.fn_part2 at h0
  have h1 := (IntOp.andi_eq_one.mp h0).2
  intro e
  have h2 := Host.reduce_andi_all _ _ _ _ ix0 h1 (ix1 e)
  have h3 : BitVec.ofBool ((0#32).sle (givenEnds a2 (ix1 e))) = 1#1 := h2
  cases hb : (0#32).sle (givenEnds a2 (ix1 e))
  · rw [hb] at h3; exact absurd h3 (by decide)
  · rfl

end Cert.Bridge

end
-- ==== Proof.RefRun.lean ====
/-
  The reference program's run. Its @main is a straight line of tensor operations: the 104 printed statements,
  with the three calls replaced by their callees' operations over the buffers each call names (a select with a
  broadcast scalar; twice the leaky rectifier, whose own select is a further call). The line is stated as two
  lists, one per printed window; running a list is folding its operations over the buffer contents, so every
  execution ends with each buffer at the fold, and the fold at the two result buffers is the composition
  `Terms.out0` / `Terms.out1` of the argument arrays, the arguments themselves being written by no operation.
-/
import proofs.«131488_j63857573757446_2_alg».proof.Proof.Gen.ReferenceIdeal
import proofs.«131488_j63857573757446_2_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60: 59 operations of @main and, at the call of the scalar-filled select, its 3. -/
abbrev ops0 : List (HloOp τ sig (Elt F)) :=
  ( StableHlo.binary main_arg0 main_arg1 main_v0 ((fun a b => concatenate S200000x128 0 [⟨S100000x128, a⟩, ⟨S100000x128, b⟩] concatenates_S100000x128_S100000x128_S200000x128_d0) : (⟨S100000x128, .f32⟩ : BufTy).Contents (Elt F) → (⟨S100000x128, .f32⟩ : BufTy).Contents (Elt F) → (⟨S200000x128, .f32⟩ : BufTy).Contents (Elt F))
  :: StableHlo.unary main_arg2 main_v1 ((extractStridedSlice S1x600000 ![0, 0] · slices_S2x600000_S1x600000_0_0) : (⟨S2x600000, .i32⟩ : BufTy).Contents (Elt F) → (⟨S1x600000, .i32⟩ : BufTy).Contents (Elt F))
  :: StableHlo.reshape main_v1 main_v2 rfl shapeCasts_S1x600000_S600000
  :: StableHlo.nullary main_v3 (iotaInDim S200000 32 0)
  :: StableHlo.binary main_v2 main_v3 main_v4 ((fun a b => concatenate S800000 0 [⟨S600000, a⟩, ⟨S200000, b⟩] concatenates_S600000_S200000_S800000_d0) : (⟨S600000, .i32⟩ : BufTy).Contents (Elt F) → (⟨S200000, .i32⟩ : BufTy).Contents (Elt F) → (⟨S800000, .i32⟩ : BufTy).Contents (Elt F))
  :: StableHlo.unary main_arg2 main_v5 ((extractStridedSlice S1x600000 ![1, 0] · slices_S2x600000_S1x600000_1_0) : (⟨S2x600000, .i32⟩ : BufTy).Contents (Elt F) → (⟨S1x600000, .i32⟩ : BufTy).Contents (Elt F))
  :: StableHlo.reshape main_v5 main_v6 rfl shapeCasts_S1x600000_S600000
  :: StableHlo.nullary main_v7 (iotaInDim S200000 32 0)
  :: StableHlo.binary main_v6 main_v7 main_v8 ((fun a b => concatenate S800000 0 [⟨S600000, a⟩, ⟨S200000, b⟩] concatenates_S600000_S200000_S800000_d0) : (⟨S600000, .i32⟩ : BufTy).Contents (Elt F) → (⟨S200000, .i32⟩ : BufTy).Contents (Elt F) → (⟨S800000, .i32⟩ : BufTy).Contents (Elt F))
  :: StableHlo.nullary main_cst (constant S_ .f32 0x3F800000#32)
  :: StableHlo.unary main_cst main_v9 (broadcastInDim S200000 ![] bcast_S_S200000 : (⟨S_, .f32⟩ : BufTy).Contents (Elt F) → (⟨S200000, .f32⟩ : BufTy).Contents (Elt F))
  :: StableHlo.binary main_arg3 main_v9 main_v10 ((fun a b => concatenate S800000 0 [⟨S600000, a⟩, ⟨S200000, b⟩] concatenates_S600000_S200000_S800000_d0) : (⟨S600000, .f32⟩ : BufTy).Contents (Elt F) → (⟨S200000, .f32⟩ : BufTy).Contents (Elt F) → (⟨S800000, .f32⟩ : BufTy).Contents (Elt F))
  :: StableHlo.nullary main_cst_0 (constant S_ .f32 0x00000000#32)
  :: StableHlo.unary main_cst_0 main_v11 (broadcastInDim S200000 ![] bcast_S_S200000 : (⟨S_, .f32⟩ : BufTy).Contents (Elt F) → (⟨S200000, .f32⟩ : BufTy).Contents (Elt F))
  :: StableHlo.unary main_v8 main_v12 (broadcastInDim S800000x1 ![0] bcast_S800000_S800000x1_0 : (⟨S800000, .i32⟩ : BufTy).Contents (Elt F) → (⟨S800000x1, .i32⟩ : BufTy).Contents (Elt F))
  :: StableHlo.ternary main_v11 main_v12 main_v10 main_v13 ((fun x i u => Host.scatterAdd scatter_S200000_S800000x1_S800000_n_0_0_1 x i u) : (⟨S200000, .f32⟩ : BufTy).Contents (Elt F) → (⟨S800000x1, .i32⟩ : BufTy).Contents (Elt F) → (⟨S800000, .f32⟩ : BufTy).Contents (Elt F) → (⟨S200000, .f32⟩ : BufTy).Contents (Elt F))
  :: StableHlo.nullary main_cst_1 (constant S_ .f32 0x00000000#32)
  :: StableHlo.unary main_cst_1 main_v14 (broadcastInDim S200000 ![] bcast_S_S200000 : (⟨S_, .f32⟩ : BufTy).Contents (Elt F) → (⟨S200000, .f32⟩ : BufTy).Contents (Elt F))
  :: StableHlo.binary main_v13 main_v14 main_v15 (cmpf .ogt : (⟨S200000, .f32⟩ : BufTy).Contents (Elt F) → (⟨S200000, .f32⟩ : BufTy).Contents (Elt F) → (⟨S200000, .i1⟩ : BufTy).Contents (Elt F))
  :: StableHlo.unary main_v13 main_v16 (Host.rsqrt : (⟨S200000, .f32⟩ : BufTy).Contents (Elt F) → (⟨S200000, .f32⟩ : BufTy).Contents (Elt F))
  :: StableHlo.nullary main_cst_2 (constant S_ .f32 0x00000000#32)
  :: StableHlo.unary main_cst_2 main_call0_v0 ((fun x => x) : (⟨S_, .f32⟩ : BufTy).Contents (Elt F) → (⟨S_, .f32⟩ : BufTy).Contents (Elt F))
  :: StableHlo.unary main_call0_v0 main_call0_v1 (broadcastInDim S200000 ![] bcast_S_S200000 : (⟨S_, .f32⟩ : BufTy).Contents (Elt F) → (⟨S200000, .f32⟩ : BufTy).Contents (Elt F))
  :: StableHlo.ternary main_v15 main_v16 main_call0_v1 main_v17 (select : (⟨S200000, .i1⟩ : BufTy).Contents (Elt F) → (⟨S200000, .f32⟩ : BufTy).Contents (Elt F) → (⟨S200000, .f32⟩ : BufTy).Contents (Elt F) → (⟨S200000, .f32⟩ : BufTy).Contents (Elt F))
  :: StableHlo.nullary main_c (constantI S_ 32 0#32)
  :: StableHlo.unary main_c main_v18 (broadcastInDim S800000 ![] bcast_S_S800000 : (⟨S_, .i32⟩ : BufTy).Contents (Elt F) → (⟨S800000, .i32⟩ : BufTy).Contents (Elt F))
  :: StableHlo.binary main_v4 main_v18 main_v19 (cmpi .slt : (⟨S800000, .i32⟩ : BufTy).Contents (Elt F) → (⟨S800000, .i32⟩ : BufTy).Contents (Elt F) → (⟨S800000, .i1⟩ : BufTy).Contents (Elt F))
  :: StableHlo.nullary main_c_3 (constantI S_ 32 200000#32)
  :: StableHlo.unary main_c_3 main_v20 (broadcastInDim S800000 ![] bcast_S_S800000 : (⟨S_, .i32⟩ : BufTy).Contents (Elt F) → (⟨S800000, .i32⟩ : BufTy).Contents (Elt F))
  :: StableHlo.binary main_v4 main_v20 main_v21 (addi : (⟨S800000, .i32⟩ : BufTy).Contents (Elt F) → (⟨S800000, .i32⟩ : BufTy).Contents (Elt F) → (⟨S800000, .i32⟩ : BufTy).Contents (Elt F))
  :: StableHlo.ternary main_v19 main_v21 main_v4 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v22 main_v23 (broadcastInDim S800000x1 ![0] bcast_S800000_S800000x1_0 : (⟨S800000, .i32⟩ : BufTy).Contents (Elt F) → (⟨S800000x1, .i32⟩ : BufTy).Contents (Elt F))
  :: StableHlo.binary main_v17 main_v23 main_v24 ((fun x i => Host.gather gather_S200000_S800000x1_S800000_n_0_n_n_0_1_1 x i) : (⟨S200000, .f32⟩ : BufTy).Contents (Elt F) → (⟨S800000x1, .i32⟩ : BufTy).Contents (Elt F) → (⟨S800000, .f32⟩ : BufTy).Contents (Elt F))
  :: StableHlo.binary main_v24 main_v10 main_v25 (mulf : (⟨S800000, .f32⟩ : BufTy).Contents (Elt F) → (⟨S800000, .f32⟩ : BufTy).Contents (Elt F) → (⟨S800000, .f32⟩ : BufTy).Contents (Elt F))
  :: StableHlo.nullary main_c_4 (constantI S_ 32 0#32)
  :: StableHlo.unary main_c_4 main_v26 (broadcastInDim S800000 ![] bcast_S_S800000 : (⟨S_, .i32⟩ : BufTy).Contents (Elt F) → (⟨S800000, .i32⟩ : BufTy).Contents (Elt F))
  :: StableHlo.binary main_v8 main_v26 main_v27 (cmpi .slt : (⟨S800000, .i32⟩ : BufTy).Contents (Elt F) → (⟨S800000, .i32⟩ : BufTy).Contents (Elt F) → (⟨S800000, .i1⟩ : BufTy).Contents (Elt F))
  :: StableHlo.nullary main_c_5 (constantI S_ 32 200000#32)
  :: StableHlo.unary main_c_5 main_v28 (broadcastInDim S800000 ![] bcast_S_S800000 : (⟨S_, .i32⟩ : BufTy).Contents (Elt F) → (⟨S800000, .i32⟩ : BufTy).Contents (Elt F))
  :: StableHlo.binary main_v8 main_v28 main_v29 (addi : (⟨S800000, .i32⟩ : BufTy).Contents (Elt F) → (⟨S800000, .i32⟩ : BufTy).Contents (Elt F) → (⟨S800000, .i32⟩ : BufTy).Contents (Elt F))
  :: StableHlo.ternary main_v27 main_v29 main_v8 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v30 main_v31 (broadcastInDim S800000x1 ![0] bcast_S800000_S800000x1_0 : (⟨S800000, .i32⟩ : BufTy).Contents (Elt F) → (⟨S800000x1, .i32⟩ : BufTy).Contents (Elt F))
  :: StableHlo.binary main_v17 main_v31 main_v32 ((fun x i => Host.gather gather_S200000_S800000x1_S800000_n_0_n_n_0_1_1 x i) : (⟨S200000, .f32⟩ : BufTy).Contents (Elt F) → (⟨S800000x1, .i32⟩ : BufTy).Contents (Elt F) → (⟨S800000, .f32⟩ : BufTy).Contents (Elt F))
  :: StableHlo.binary main_v25 main_v32 main_v33 (mulf : (⟨S800000, .f32⟩ : BufTy).Contents (Elt F) → (⟨S800000, .f32⟩ : BufTy).Contents (Elt F) → (⟨S800000, .f32⟩ : BufTy).Contents (Elt F))
  :: StableHlo.binary main_v0 main_arg4 main_v34 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))
  :: StableHlo.unary main_v33 main_v35 (broadcastInDim S800000x1 ![0] bcast_S800000_S800000x1_0 : (⟨S800000, .f32⟩ : BufTy).Contents (Elt F) → (⟨S800000x1, .f32⟩ : BufTy).Contents (Elt F))
  :: StableHlo.nullary main_c_6 (constantI S_ 32 0#32)
  :: StableHlo.unary main_c_6 main_v36 (broadcastInDim S800000 ![] bcast_S_S800000 : (⟨S_, .i32⟩ : BufTy).Contents (Elt F) → (⟨S800000, .i32⟩ : BufTy).Contents (Elt F))
  :: StableHlo.binary main_v4 main_v36 main_v37 (cmpi .slt : (⟨S800000, .i32⟩ : BufTy).Contents (Elt F) → (⟨S800000, .i32⟩ : BufTy).Contents (Elt F) → (⟨S800000, .i1⟩ : BufTy).Contents (Elt F))
  :: StableHlo.nullary main_c_7 (constantI S_ 32 200000#32)
  :: StableHlo.unary main_c_7 main_v38 (broadcastInDim S800000 ![] bcast_S_S800000 : (⟨S_, .i32⟩ : BufTy).Contents (Elt F) → (⟨S800000, .i32⟩ : BufTy).Contents (Elt F))
  :: StableHlo.binary main_v4 main_v38 main_v39 (addi : (⟨S800000, .i32⟩ : BufTy).Contents (Elt F) → (⟨S800000, .i32⟩ : BufTy).Contents (Elt F) → (⟨S800000, .i32⟩ : BufTy).Contents (Elt F))
  :: StableHlo.ternary main_v37 main_v39 main_v4 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v40 main_v41 (broadcastInDim S800000x1 ![0] bcast_S800000_S800000x1_0 : (⟨S800000, .i32⟩ : BufTy).Contents (Elt F) → (⟨S800000x1, .i32⟩ : BufTy).Contents (Elt F))
  :: StableHlo.binary main_v34 main_v41 main_v42 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F))
  :: StableHlo.unary main_v35 main_v43 (broadcastInDim S800000x128 ![0, 1] bcast_S800000x1_S800000x128_0_1 : (⟨S800000x1, .f32⟩ : BufTy).Contents (Elt F) → (⟨S800000x128, .f32⟩ : BufTy).Contents (Elt F))
  :: StableHlo.binary main_v43 main_v42 main_v44 (mulf : (⟨S800000x128, .f32⟩ : BufTy).Contents (Elt F) → (⟨S800000x128, .f32⟩ : BufTy).Contents (Elt F) → (⟨S800000x128, .f32⟩ : BufTy).Contents (Elt F))
  :: StableHlo.nullary main_cst_8 (constant S_ .f32 0x00000000#32)
  :: StableHlo.unary main_cst_8 main_v45 (broadcastInDim S200000x128 ![] bcast_S_S200000x128 : (⟨S_, .f32⟩ : BufTy).Contents (Elt F) → (⟨S200000x128, .f32⟩ : BufTy).Contents (Elt F))
  :: StableHlo.nullary main_c_9 (constantI S_ 32 0#32)
  :: StableHlo.unary main_c_9 main_v46 (broadcastInDim S800000 ![] bcast_S_S800000 : (⟨S_, .i32⟩ : BufTy).Contents (Elt F) → (⟨S800000, .i32⟩ : BufTy).Contents (Elt F))
  :: StableHlo.binary main_v8 main_v46 main_v47 (cmpi .slt : (⟨S800000, .i32⟩ : BufTy).Contents (Elt F) → (⟨S800000, .i32⟩ : BufTy).Contents (Elt F) → (⟨S800000, .i1⟩ : BufTy).Contents (Elt F))
  :: [] )

/-- Statements 61 … 104: 41 operations of @main and, at each of the two calls of the leaky rectifier, its 6 and
    the 1 of the select it calls. -/
abbrev ops1 : List (HloOp τ sig (Elt F)) :=
  ( StableHlo.nullary main_c_10 (constantI S_ 32 200000#32)
  :: StableHlo.unary main_c_10 main_v48 (broadcastInDim S800000 ![] bcast_S_S800000 : (⟨S_, .i32⟩ : BufTy).Contents (Elt F) → (⟨S800000, .i32⟩ : BufTy).Contents (Elt F))
  :: StableHlo.binary main_v8 main_v48 main_v49 (addi : (⟨S800000, .i32⟩ : BufTy).Contents (Elt F) → (⟨S800000, .i32⟩ : BufTy).Contents (Elt F) → (⟨S800000, .i32⟩ : BufTy).Contents (Elt F))
  :: StableHlo.ternary main_v47 main_v49 main_v8 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v50 main_v51 (broadcastInDim S800000x1 ![0] bcast_S800000_S800000x1_0 : (⟨S800000, .i32⟩ : BufTy).Contents (Elt F) → (⟨S800000x1, .i32⟩ : BufTy).Contents (Elt F))
  :: StableHlo.ternary main_v45 main_v51 main_v44 main_v52 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F))
  :: StableHlo.unary main_arg5 main_v53 (broadcastInDim S1x128 ![1] bcast_S128_S1x128_1 : (⟨S128, .f32⟩ : BufTy).Contents (Elt F) → (⟨S1x128, .f32⟩ : BufTy).Contents (Elt F))
  :: StableHlo.unary main_v53 main_v54 (broadcastInDim S200000x128 ![0, 1] bcast_S1x128_S200000x128_0_1 : (⟨S1x128, .f32⟩ : BufTy).Contents (Elt F) → (⟨S200000x128, .f32⟩ : BufTy).Contents (Elt F))
  :: StableHlo.binary main_v52 main_v54 main_v55 (addf : (⟨S200000x128, .f32⟩ : BufTy).Contents (Elt F) → (⟨S200000x128, .f32⟩ : BufTy).Contents (Elt F) → (⟨S200000x128, .f32⟩ : BufTy).Contents (Elt F))
  :: StableHlo.binary main_v0 main_arg6 main_v56 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))
  :: StableHlo.unary main_arg7 main_v57 (broadcastInDim S1x128 ![1] bcast_S128_S1x128_1 : (⟨S128, .f32⟩ : BufTy).Contents (Elt F) → (⟨S1x128, .f32⟩ : BufTy).Contents (Elt F))
  :: StableHlo.unary main_v57 main_v58 (broadcastInDim S200000x128 ![0, 1] bcast_S1x128_S200000x128_0_1 : (⟨S1x128, .f32⟩ : BufTy).Contents (Elt F) → (⟨S200000x128, .f32⟩ : BufTy).Contents (Elt F))
  :: StableHlo.binary main_v56 main_v58 main_v59 (addf : (⟨S200000x128, .f32⟩ : BufTy).Contents (Elt F) → (⟨S200000x128, .f32⟩ : BufTy).Contents (Elt F) → (⟨S200000x128, .f32⟩ : BufTy).Contents (Elt F))
  :: StableHlo.nullary main_cst_11 (constant S_ .f32 0x3C23D70A#32)
  :: StableHlo.nullary main_call1_cst (constant S_ .f32 0x00000000#32)
  :: StableHlo.unary main_call1_cst main_call1_v0 (broadcastInDim S200000x128 ![] bcast_S_S200000x128 : (⟨S_, .f32⟩ : BufTy).Contents (Elt F) → (⟨S200000x128, .f32⟩ : BufTy).Contents (Elt F))
  :: StableHlo.binary main_v59 main_call1_v0 main_call1_v1 (cmpf .oge : (⟨S200000x128, .f32⟩ : BufTy).Contents (Elt F) → (⟨S200000x128, .f32⟩ : BufTy).Contents (Elt F) → (⟨S200000x128, .i1⟩ : BufTy).Contents (Elt F))
  :: StableHlo.unary main_cst_11 main_call1_v2 ((fun x => x) : (⟨S_, .f32⟩ : BufTy).Contents (Elt F) → (⟨S_, .f32⟩ : BufTy).Contents (Elt F))
  :: StableHlo.unary main_call1_v2 main_call1_v3 (broadcastInDim S200000x128 ![] bcast_S_S200000x128 : (⟨S_, .f32⟩ : BufTy).Contents (Elt F) → (⟨S200000x128, .f32⟩ : BufTy).Contents (Elt F))
  :: StableHlo.binary main_call1_v3 main_v59 main_call1_v4 (mulf : (⟨S200000x128, .f32⟩ : BufTy).Contents (Elt F) → (⟨S200000x128, .f32⟩ : BufTy).Contents (Elt F) → (⟨S200000x128, .f32⟩ : BufTy).Contents (Elt F))
  :: StableHlo.ternary main_call1_v1 main_v59 main_call1_v4 main_v60 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F))
  :: StableHlo.binary main_v55 main_v60 main_v61 (addf : (⟨S200000x128, .f32⟩ : BufTy).Contents (Elt F) → (⟨S200000x128, .f32⟩ : BufTy).Contents (Elt F) → (⟨S200000x128, .f32⟩ : BufTy).Contents (Elt F))
  :: StableHlo.nullary main_cst_12 (constant S_ .f32 0x00000000#32)
  :: StableHlo.binary main_v61 main_cst_12 main_v62 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F))
  :: StableHlo.unary main_v62 main_v63 (broadcastInDim S200000x1 ![0] bcast_S200000_S200000x1_0 : (⟨S200000, .f32⟩ : BufTy).Contents (Elt F) → (⟨S200000x1, .f32⟩ : BufTy).Contents (Elt F))
  :: StableHlo.nullary main_cst_13 (constant S_ .f32 0x43000000#32)
  :: StableHlo.unary main_cst_13 main_v64 (broadcastInDim S200000x1 ![] bcast_S_S200000x1 : (⟨S_, .f32⟩ : BufTy).Contents (Elt F) → (⟨S200000x1, .f32⟩ : BufTy).Contents (Elt F))
  :: StableHlo.binary main_v63 main_v64 main_v65 (Host.divf : (⟨S200000x1, .f32⟩ : BufTy).Contents (Elt F) → (⟨S200000x1, .f32⟩ : BufTy).Contents (Elt F) → (⟨S200000x1, .f32⟩ : BufTy).Contents (Elt F))
  :: StableHlo.unary main_v65 main_v66 (broadcastInDim S200000x128 ![0, 1] bcast_S200000x1_S200000x128_0_1 : (⟨S200000x1, .f32⟩ : BufTy).Contents (Elt F) → (⟨S200000x128, .f32⟩ : BufTy).Contents (Elt F))
  :: StableHlo.binary main_v61 main_v66 main_v67 (subf : (⟨S200000x128, .f32⟩ : BufTy).Contents (Elt F) → (⟨S200000x128, .f32⟩ : BufTy).Contents (Elt F) → (⟨S200000x128, .f32⟩ : BufTy).Contents (Elt F))
  :: StableHlo.binary main_v67 main_v67 main_v68 (mulf : (⟨S200000x128, .f32⟩ : BufTy).Contents (Elt F) → (⟨S200000x128, .f32⟩ : BufTy).Contents (Elt F) → (⟨S200000x128, .f32⟩ : BufTy).Contents (Elt F))
  :: StableHlo.nullary main_cst_14 (constant S_ .f32 0x00000000#32)
  :: StableHlo.binary main_v68 main_cst_14 main_v69 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F))
  :: StableHlo.unary main_v69 main_v70 (broadcastInDim S200000x1 ![0] bcast_S200000_S200000x1_0 : (⟨S200000, .f32⟩ : BufTy).Contents (Elt F) → (⟨S200000x1, .f32⟩ : BufTy).Contents (Elt F))
  :: StableHlo.nullary main_cst_15 (constant S_ .f32 0x43000000#32)
  :: StableHlo.unary main_cst_15 main_v71 (broadcastInDim S200000x1 ![] bcast_S_S200000x1 : (⟨S_, .f32⟩ : BufTy).Contents (Elt F) → (⟨S200000x1, .f32⟩ : BufTy).Contents (Elt F))
  :: StableHlo.binary main_v70 main_v71 main_v72 (Host.divf : (⟨S200000x1, .f32⟩ : BufTy).Contents (Elt F) → (⟨S200000x1, .f32⟩ : BufTy).Contents (Elt F) → (⟨S200000x1, .f32⟩ : BufTy).Contents (Elt F))
  :: StableHlo.unary main_v65 main_v73 (broadcastInDim S200000x128 ![0, 1] bcast_S200000x1_S200000x128_0_1 : (⟨S200000x1, .f32⟩ : BufTy).Contents (Elt F) → (⟨S200000x128, .f32⟩ : BufTy).Contents (Elt F))
  :: StableHlo.binary main_v61 main_v73 main_v74 (subf : (⟨S200000x128, .f32⟩ : BufTy).Contents (Elt F) → (⟨S200000x128, .f32⟩ : BufTy).Contents (Elt F) → (⟨S200000x128, .f32⟩ : BufTy).Contents (Elt F))
  :: StableHlo.nullary main_cst_16 (constant S_ .f32 0x358637BD#32)
  :: StableHlo.unary main_cst_16 main_v75 (broadcastInDim S200000x1 ![] bcast_S_S200000x1 : (⟨S_, .f32⟩ : BufTy).Contents (Elt F) → (⟨S200000x1, .f32⟩ : BufTy).Contents (Elt F))
  :: StableHlo.binary main_v72 main_v75 main_v76 (addf : (⟨S200000x1, .f32⟩ : BufTy).Contents (Elt F) → (⟨S200000x1, .f32⟩ : BufTy).Contents (Elt F) → (⟨S200000x1, .f32⟩ : BufTy).Contents (Elt F))
  :: StableHlo.unary main_v76 main_v77 (Host.sqrt : (⟨S200000x1, .f32⟩ : BufTy).Contents (Elt F) → (⟨S200000x1, .f32⟩ : BufTy).Contents (Elt F))
  :: StableHlo.unary main_v77 main_v78 (broadcastInDim S200000x128 ![0, 1] bcast_S200000x1_S200000x128_0_1 : (⟨S200000x1, .f32⟩ : BufTy).Contents (Elt F) → (⟨S200000x128, .f32⟩ : BufTy).Contents (Elt F))
  :: StableHlo.binary main_v74 main_v78 main_v79 (Host.divf : (⟨S200000x128, .f32⟩ : BufTy).Contents (Elt F) → (⟨S200000x128, .f32⟩ : BufTy).Contents (Elt F) → (⟨S200000x128, .f32⟩ : BufTy).Contents (Elt F))
  :: StableHlo.nullary main_cst_17 (constant S_ .f32 0x3C23D70A#32)
  :: StableHlo.nullary main_call2_cst (constant S_ .f32 0x00000000#32)
  :: StableHlo.unary main_call2_cst main_call2_v0 (broadcastInDim S200000x128 ![] bcast_S_S200000x128 : (⟨S_, .f32⟩ : BufTy).Contents (Elt F) → (⟨S200000x128, .f32⟩ : BufTy).Contents (Elt F))
  :: StableHlo.binary main_v79 main_call2_v0 main_call2_v1 (cmpf .oge : (⟨S200000x128, .f32⟩ : BufTy).Contents (Elt F) → (⟨S200000x128, .f32⟩ : BufTy).Contents (Elt F) → (⟨S200000x128, .i1⟩ : BufTy).Contents (Elt F))
  :: StableHlo.unary main_cst_17 main_call2_v2 ((fun x => x) : (⟨S_, .f32⟩ : BufTy).Contents (Elt F) → (⟨S_, .f32⟩ : BufTy).Contents (Elt F))
  :: StableHlo.unary main_call2_v2 main_call2_v3 (broadcastInDim S200000x128 ![] bcast_S_S200000x128 : (⟨S_, .f32⟩ : BufTy).Contents (Elt F) → (⟨S200000x128, .f32⟩ : BufTy).Contents (Elt F))
  :: StableHlo.binary main_call2_v3 main_v79 main_call2_v4 (mulf : (⟨S200000x128, .f32⟩ : BufTy).Contents (Elt F) → (⟨S200000x128, .f32⟩ : BufTy).Contents (Elt F) → (⟨S200000x128, .f32⟩ : BufTy).Contents (Elt F))
  :: StableHlo.ternary main_call2_v1 main_v79 main_call2_v4 main_v80 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F))
  :: StableHlo.unary main_v80 main_v81 ((extractStridedSlice S100000x128 ![0, 0] · slices_S200000x128_S100000x128_0_0) : (⟨S200000x128, .f32⟩ : BufTy).Contents (Elt F) → (⟨S100000x128, .f32⟩ : BufTy).Contents (Elt F))
  :: StableHlo.unary main_v80 main_v82 ((extractStridedSlice S100000x128 ![100000, 0] · slices_S200000x128_S100000x128_100000_0) : (⟨S200000x128, .f32⟩ : BufTy).Contents (Elt F) → (⟨S100000x128, .f32⟩ : BufTy).Contents (Elt F))
  :: [] )

-- the chain of binds is walked once per statement
set_option maxRecDepth 8192 in
set_option maxHeartbeats 2000000 in
/-- The first window is its list run in order: the callee's definition unfolds at the call and the call's record
    at its fields, and sequencing re-associates by computation. -/
theorem main_part0_eq (c : Dev nD) : main_part0 (F := F) c = seq ops0 := rfl

set_option maxRecDepth 8192 in
set_option maxHeartbeats 2000000 in
/-- The second window likewise, the rectifier's definition and its select's unfolding at both calls. -/
theorem main_part1_eq (c : Dev nD) : main_part1 (F := F) c = seq ops1 := rfl

/-- @main is the two lists run one after the other, which is their concatenation run as one. -/
theorem main_eq (c : Dev nD) : main (F := F) c = seq (ops0 ++ ops1) := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub .., reshape_bufs_sub .., nullary_bufs_sub .., binary_bufs_sub .., unary_bufs_sub .., reshape_bufs_sub .., nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., nullary_bufs_sub .., unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., ternary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub ..⟩

theorem ops_sub : (ops0 ++ ops1 : List (HloOp τ sig (Elt F))).Forall fun op => op.bufs ⊆ tcRefs τ sig :=
  List.forall_append.2 ⟨ops0_sub, ops1_sub⟩

/-- Every operation determines its results: none allocates. -/
theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops_fresh : ∀ op ∈ (ops0 ++ ops1 : List (HloOp τ sig (Elt F))), op.fresh = ∅ := fun op h =>
  (List.mem_append.1 h).elim (ops0_fresh op) (ops1_fresh op)

/-- The contents after two lists in a row are those after the second, from those after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- What one `simp` pass leaves: a buffer read under a dependent pair (an operand of a concatenation, paired with its
    shape) is not reached by `simp`'s congruence; the same facts as rewriting steps reach it. -/
local macro "results_loop" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The fold at the result buffers and at the arguments -/

set_option maxRecDepth 8192 in
set_option maxHeartbeats 8000000 in
/-- The fold at the two results and at the eight arguments. Each operation's result at its own buffer is its function
    of its operands' contents, and at any other buffer what was there; composed from the results back to the
    arguments, that is `Terms.out0` and `Terms.out1` of the arguments' contents, and no operation writes an argument. -/
theorem fold_eq (V : Valuation τ sig (Elt Ideal)) :
    after (ops0 ++ ops1) V (main_v81 : DevRef τ sig) = Terms.out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
    ∧ after (ops0 ++ ops1) V (main_v82 : DevRef τ sig) = Terms.out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
    ∧ after (ops0 ++ ops1) V (main_arg0 : DevRef τ sig) = V (main_arg0 : DevRef τ sig)
    ∧ after (ops0 ++ ops1) V (main_arg1 : DevRef τ sig) = V (main_arg1 : DevRef τ sig)
    ∧ after (ops0 ++ ops1) V (main_arg2 : DevRef τ sig) = V (main_arg2 : DevRef τ sig)
    ∧ after (ops0 ++ ops1) V (main_arg3 : DevRef τ sig) = V (main_arg3 : DevRef τ sig)
    ∧ after (ops0 ++ ops1) V (main_arg4 : DevRef τ sig) = V (main_arg4 : DevRef τ sig)
    ∧ after (ops0 ++ ops1) V (main_arg5 : DevRef τ sig) = V (main_arg5 : DevRef τ sig)
    ∧ after (ops0 ++ ops1) V (main_arg6 : DevRef τ sig) = V (main_arg6 : DevRef τ sig)
    ∧ after (ops0 ++ ops1) V (main_arg7 : DevRef τ sig) = V (main_arg7 : DevRef τ sig) := by
  rw [after_app]
  after_results_simp
  results_loop
  refine ⟨?_, ?_, ?_, ?_, ?_, ?_, ?_, ?_, ?_, ?_⟩ <;> first | exact trivial | rfl

/-- On the one device, from any memory with zero counters: every weakly fair execution of @main terminates with the
    two results at `Terms.out0` / `Terms.out1` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v81) = Terms.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v82) = Terms.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      have e := fold_eq (launchContents m c)
      ⟨(h c main_v81).trans e.1, (h c main_v82).trans e.2.1, (h c main_arg0).trans e.2.2.1, (h c main_arg1).trans e.2.2.2.1,
        (h c main_arg2).trans e.2.2.2.2.1, (h c main_arg3).trans e.2.2.2.2.2.1, (h c main_arg4).trans e.2.2.2.2.2.2.1,
        (h c main_arg5).trans e.2.2.2.2.2.2.2.1, (h c main_arg6).trans e.2.2.2.2.2.2.2.2.1, (h c main_arg7).trans e.2.2.2.2.2.2.2.2.2⟩)
    (run_seq scopedRefs_eq scopedSems_eq defs main (fun _ => ops0 ++ ops1) main_eq (fun _ => ops_sub) m ρ (fun _ => ops_fresh))

end Cert.ReferenceIdeal.RefRun

end
-- ==== Proof.lean ====
/-
  The certificate: a graph-convolution layer with a dense skip branch, row normalisation and leaky rectifiers,
  computed once by four block-tiled kernels around a host-side edge aggregation and once by plain array operations.

  The frames of the two kernel programs are the generated ones; the reference's frame is its run with the results
  dropped. Nothing was rewritten by the idealisation, so it preserves trivially. For the values: the kernel program's
  two results are what its last two regions leave, each region's array is read block by block as one row-wise function
  of the arrays it found, the host operations between the regions are read as pure functions, and the resulting
  expression equals the reference's term row by row. The only hypothesis used is that no edge's second end is
  negative (then "count a negative index from the end" is the identity and both programs scatter into the same rows).
-/
import proofs.«131488_j63857573757446_2_alg».proof.Defs
import proofs.«131488_j63857573757446_2_alg».proof.Proof.Gen.Kernel
import proofs.«131488_j63857573757446_2_alg».proof.Proof.Gen.Kernel.Frame
import proofs.«131488_j63857573757446_2_alg».proof.Proof.Gen.KernelIdeal
import proofs.«131488_j63857573757446_2_alg».proof.Proof.Gen.KernelIdeal.Frame
import proofs.«131488_j63857573757446_2_alg».proof.Proof.Gen.ReferenceIdeal
import proofs.«131488_j63857573757446_2_alg».proof.Proof.Gen.Pre_finite_inputs
import proofs.«131488_j63857573757446_2_alg».proof.Proof.KRun
import proofs.«131488_j63857573757446_2_alg».proof.Proof.KPlumb
import proofs.«131488_j63857573757446_2_alg».proof.Proof.KPlumb2
import proofs.«131488_j63857573757446_2_alg».proof.Proof.RegionProj
import proofs.«131488_j63857573757446_2_alg».proof.Proof.RegionComb
import proofs.«131488_j63857573757446_2_alg».proof.Proof.Bridge
import proofs.«131488_j63857573757446_2_alg».proof.Proof.PreCols
import proofs.«131488_j63857573757446_2_alg».proof.Proof.RefRun
import Idealize.ShloMosaic.Adequacy
import Idealize.ShloMosaic.Init

noncomputable section

namespace Cert.Proof

open Idealize.ShloMosaic Idealize.ShloMosaic.TcCoe Idealize.SL.Sem

section Values

open Cert.KernelIdeal Cert.KernelIdeal.Facts₀

variable (m : (ℓ : Loc nD τ sig) → Buf (Elt Ideal) ℓ) (ρ : Dev nD → PrngReg) (c : Dev nD)

/-- What the kernel program leaves in its first result: the first 100000 rows of the reference's term. -/
theorem value0 (hp : Cert.Bridge.EndsNonneg (m ((c : Thread nD τ).loc main_arg2))) :
    Gen.W8 m ρ c (Proc.devRef .tc main_v54)
      = Cert.ReferenceIdeal.Terms.out0 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [Plumb.W8_v54 m ρ c, Regions.comb2 (Gen.V6 m ρ) c, Plumb.V6_v52 m ρ c, Plumb.V6_arg0 m ρ c, Plumb.V6_arg6 m ρ c,
    Plumb.V6_v1 m ρ c, Plumb.V6_v0 m ρ c, Plumb.W3_v2 m ρ c, Plumb.W3_v3 m ρ c, Regions.proj0 (Gen.V1 m ρ) c,
    Regions.proj1 (Gen.V2 m ρ) c, Plumb.V1_arg0 m ρ c, Plumb.V1_arg4 m ρ c, Plumb.V2_arg1 m ρ c, Plumb.V2_arg4 m ρ c]
  exact Cert.Bridge.half0 _ _ _ _ _ _ _ _ _ _ hp _

/-- What the kernel program leaves in its second result: the last 100000 rows of the reference's term. -/
theorem value1 (hp : Cert.Bridge.EndsNonneg (m ((c : Thread nD τ).loc main_arg2))) :
    Gen.W8 m ρ c (Proc.devRef .tc main_v55)
      = Cert.ReferenceIdeal.Terms.out1 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [Plumb.W8_v55 m ρ c, Regions.comb3 (Gen.V7 m ρ) c, Plumb.V7_v53 m ρ c, Plumb.V6_v53 m ρ c, Plumb.V7_arg1 m ρ c,
    Plumb.V7_arg6 m ρ c, Plumb.V7_v1 m ρ c, Plumb.V7_v0 m ρ c, Plumb.V6_v1 m ρ c, Plumb.V6_v0 m ρ c, Plumb.W3_v2 m ρ c,
    Plumb.W3_v3 m ρ c, Regions.proj0 (Gen.V1 m ρ) c, Regions.proj1 (Gen.V2 m ρ) c, Plumb.V1_arg0 m ρ c, Plumb.V1_arg4 m ρ c,
    Plumb.V2_arg1 m ρ c, Plumb.V2_arg4 m ρ c]
  exact Cert.Bridge.half1 _ _ _ _ _ _ _ _ _ _ hp _

end Values

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.RefRun.run m ρ)

/-- The idealisation rewrote nothing. -/
theorem preserves : Cert.preserves_Kernel_KernelIdeal := trivial

/-- Both programs end with the same two results: the kernel program's own final arrays, which are the reference's
    terms of the (agreeing) arguments. -/
theorem algebraic : Cert.algebraic_KernelIdeal_ReferenceIdeal := by
  intro m ρ m' ρ' hpre hagree
  refine ⟨fun c => Cert.KernelIdeal.Gen.W8 m ρ c (Proc.devRef .tc Cert.KernelIdeal.main_v54),
    fun c => Cert.KernelIdeal.Gen.W8 m ρ c (Proc.devRef .tc Cert.KernelIdeal.main_v55),
    Cert.KernelIdeal.Plumb.krun m ρ, ?_⟩
  refine (θ_run Cert.ReferenceIdeal.defs _ _).mono (fun r h c => ?_) (Cert.ReferenceIdeal.RefRun.run m' ρ')
  have hp : Cert.Bridge.EndsNonneg (m ((c : Thread Cert.KernelIdeal.nD Cert.KernelIdeal.τ).loc Cert.KernelIdeal.main_arg2)) :=
    Cert.Bridge.endsNonneg_of_pre _ _ _ _ _ _ _ _ (hpre c)
  obtain ⟨h0, h1, hargs⟩ := h c
  obtain ⟨e0, e1, e2, e3, e4, e5, e6, e7⟩ := hagree c
  refine ⟨h0.trans ?_, h1.trans ?_, hargs⟩
  · rw [e0, e1, e2, e3, e4, e5, e6, e7]
    exact (value0 m ρ c hp).symm
  · rw [e0, e1, e2, e3, e4, e5, e6, e7]
    exact (value1 m ρ c hp).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
